-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S4096x8192 : Shape := ⟨2, ![4096, 8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S1024x2048 .f32) (main_arg1 : FVec F S1024x2048 .f32) (main_arg2 : FVec F S1024x2048 .f32) (main_arg3 : FVec F S4096x8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Kernel.lean ====
abbrev S1024x2048 : Shape := ⟨2, ![1024, 2048]⟩
abbrev S4096x8192 : Shape := ⟨2, ![4096, 8192]⟩
abbrev S1024x4096 : Shape := ⟨2, ![1024, 4096]⟩
abbrev S512x2048 : Shape := ⟨2, ![512, 2048]⟩
abbrev S2048x256 : Shape := ⟨2, ![2048, 256]⟩
abbrev S512x256 : Shape := ⟨2, ![512, 256]⟩

abbrev nBuf : Space → Nat
  | .hbm => 6
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x4096, .f32⟩
  | .hbm, ⟨5, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  concatenates_S1024x2048_S1024x2048_S1024x4096_d1 : Shape.Concatenates [S1024x2048, S1024x2048] S1024x4096 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x4096.size a
  hwx0_0 : ∀ i : grid0.Coords, EltTy.bits .f32 = 32 ∨ (Rect.block (s := S1024x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x8192.size a
  hwx0_1 : ∀ i : grid0.Coords, EltTy.bits .f32 = 32 ∨ (Rect.block (s := S4096x8192) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x8192.size a
  hwx0_2 : ∀ i : grid0.Coords, EltTy.bits .f32 = 32 ∨ (Rect.block (s := S4096x8192) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S4096x8192.size a
  hwx0_3 : ∀ i : grid0.Coords, EltTy.bits .f32 = 32 ∨ (Rect.block (s := S4096x8192) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S4096x8192.size a
  hwx0_4 : ∀ i : grid0.Coords, EltTy.bits .f32 = 32 ∨ (Rect.block (s := S4096x8192) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S1024x2048.size a
  hwx0_5 : ∀ i : grid0.Coords, EltTy.bits .f32 = 32 ∨ (Rect.block (s := S1024x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S1024x2048.size a
  hwx0_6 : ∀ i : grid0.Coords, EltTy.bits .f32 = 32 ∨ (Rect.block (s := S1024x2048) S512x256.size (cc0_transform_6 i) (hinb0_6 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x2048 : Shape := ⟨2, ![1024, 2048]⟩
abbrev S4096x8192 : Shape := ⟨2, ![4096, 8192]⟩
abbrev S1024x4096 : Shape := ⟨2, ![1024, 4096]⟩
abbrev S1024x8192 : Shape := ⟨2, ![1024, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x4096, .f32⟩
  | .hbm, ⟨5, _⟩ => ⟨S1024x8192, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S1024x2048_S1024x2048_S1024x4096_d1 : Shape.Concatenates [S1024x2048, S1024x2048] S1024x4096 1
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  bcast_S_S1024x2048 : S_.BroadcastsInDim S1024x2048 (![] : Fin 0 → Fin S1024x2048.rank)
  dot_S1024x4096_S4096x8192_S1024x8192_1_0_0_1_n_n_wf : DotDims.WF S1024x4096 S4096x8192 S1024x8192 [1] [0] [0] [1] [] []

variable [Facts₀]

def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf

class Facts : Prop extends Facts₀ where

variable [Facts]
-- ==== Proof.KBody.lean ====
/-
  The body of the LSTM kernel at one grid point, run symbolically on whole staging buffers.

  The grid is (row block, column block, reduction step) = (2, 8, 2). At reduction step 0 the four gate accumulators
  are zeroed and each receives the product of the row block of [x | h] with its gate's block of W; at step 1 each
  receives the second product on top, and the output block is σ(o) · tanh(c · σ(f) + σ(i) · tanh(g)) of the finished
  accumulators and the old cell state's block. Every load and store is of a whole buffer, so what a buffer holds after
  the body is the payload of the last store into it.
-/
import proofs.«133570_j39247411151126_2_alg».proof.Proof.Gen.Kernel.Launch
import proofs.«133570_j39247411151126_2_alg».proof.Proof.Gen.Kernel.Skeleton
import proofs.«133570_j39247411151126_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one (the accumulators are zeroed there). -/
abbrev condZ (i : grid0.Coords) : Prop := (Scalar.cmpi .ne (Scalar.extui (Scalar.cmpi .eq (BitVec.ofNat 32 (i 2).val) 0#32)) 0#32) = 1#1
/-- The reduction step is the last one (the output block is computed there). -/
abbrev condL (i : grid0.Coords) : Prop := k0_cond2 i = 1#1

/-- The first step is at the even points of the grid's row-major order, -/
theorem hcondZ : ∀ t : Fin cfg0.N, condZ (grid0.coords t) ↔ t.val % 2 = 0 :=
  (by decide +kernel : ∀ t : Fin grid0.N, condZ (grid0.coords t) ↔ t.val % 2 = 0)
/-- the last at the odd ones. -/
theorem hcondL : ∀ t : Fin cfg0.N, condL (grid0.coords t) ↔ t.val % 2 = 1 :=
  (by decide +kernel : ∀ t : Fin grid0.N, condL (grid0.coords t) ↔ t.val % 2 = 1)

set_option maxHeartbeats 4000000 in
/-- STEP 0. From the input blocks, the output buffer at anything it holds and the accumulators at anything, the body
    leaves the inputs and the output buffer as they were and each accumulator at zero plus its gate's first product. -/
theorem runA (c : Dev nD) (i : grid0.Coords) (arg3 : Memref sig .tc .vmem S512x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (hz : condZ i) (hl : ¬condL i)
    (x3 : Vec F S512x2048 .f32) (x4 x5 x6 x7 : Vec F S2048x256 .f32) (x8 x9 : Vec F S512x256 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg10 fullShare (k0_pay9 x3 k0_pay4 x4) ∗ owns (c : Thread nD τ) arg11 fullShare (k0_pay10 x3 k0_pay5 x5)
            ∗ owns (c : Thread nD τ) arg12 fullShare (k0_pay1 (k0_pay11 x3 k0_pay6 x6)) ∗ owns (c : Thread nD τ) arg13 fullShare (k0_pay2 (k0_pay8 x3) k0_pay7 x7)) -∗ K ⟨⟩))
      ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | exact hz | exact hl)
  sl_step
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H11]
  · iexists _; isplitr
    swap; · iexact H11
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H12]
  · iexists _; isplitr
    swap; · iexact H12
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  · iexists _; isplitr
    swap; · iexact H13
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]

set_option maxHeartbeats 4000000 in
/-- STEP 1. From the input blocks, the accumulators at what step 0 left (`a10 … a13`) and the output buffer at
    anything, the body leaves the inputs as they were, the accumulators at something, and the output buffer at the
    cell function of the finished accumulators. -/
theorem runB (c : Dev nD) (i : grid0.Coords) (arg3 : Memref sig .tc .vmem S512x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (hz : ¬condZ i) (hl : condL i)
    (x3 : Vec F S512x2048 .f32) (x4 x5 x6 x7 : Vec F S2048x256 .f32) (x8 : Vec F S512x256 .f32) (a10 a11 a12 a13 : Vec F S512x256 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d)
        ∗ owns (c : Thread nD τ) arg10 fullShare a10 ∗ owns (c : Thread nD τ) arg11 fullShare a11 ∗ owns (c : Thread nD τ) arg12 fullShare a12 ∗ owns (c : Thread nD τ) arg13 fullShare a13
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (k0_pay3 x8 (k0_pay9 x3 a10 x4) (k0_pay10 x3 a11 x5) (k0_pay1 (k0_pay11 x3 a12 x6)) (k0_pay2 (k0_pay8 x3) a13 x7))
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  obtain rfl := harg10.eq_unread hf10; obtain rfl := harg11.eq_unread hf11; obtain rfl := harg12.eq_unread hf12; obtain rfl := harg13.eq_unread hf13
  sl_exec (disch := first | exact hz | exact hl)
  sl_step
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  · iexists _; iexists _; isplitr
    swap; · iexact H13
    ipureintro; rfl

end Cert.Kernel.Hand

end
-- ==== Proof.KData.lean ====
/-
  What the LSTM kernel's pipeline holds point by point, and the body's obligation at every point.

  The 32 grid points in row-major order pair up: an even point 2n is reduction step 0 of an output block, the odd
  point 2n+1 its step 1. Between the two the four gate accumulators hold the first partial products; before an even
  point (and after the last point) they hold nothing that is named. The output block is computed at the odd points,
  and written back there; at the even points the output's staging buffer is left as found.
-/
import proofs.«133570_j39247411151126_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: the concatenation [x | h] has been computed. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point before `t` (point 0's own predecessor is never consulted). -/
def prev (t : Fin cfg0.N) : Fin cfg0.N := ⟨t.val - 1, Nat.lt_of_le_of_lt (Nat.sub_le _ _) t.isLt⟩

/-! ## The accumulators after step 0, the output block after step 1 -/

/-- Gate f's accumulator after step 0 at point `t`: zero plus the first product. Likewise i, g, o. -/
def acc0 (c : Dev nD) (t : Fin cfg0.N) : Vec F S512x256 .f32 := k0_pay9 (iblk m c 0 t) k0_pay4 (iblk m c 1 t)
def acc1 (c : Dev nD) (t : Fin cfg0.N) : Vec F S512x256 .f32 := k0_pay10 (iblk m c 0 t) k0_pay5 (iblk m c 2 t)
def acc2 (c : Dev nD) (t : Fin cfg0.N) : Vec F S512x256 .f32 := k0_pay1 (k0_pay11 (iblk m c 0 t) k0_pay6 (iblk m c 3 t))
def acc3 (c : Dev nD) (t : Fin cfg0.N) : Vec F S512x256 .f32 := k0_pay2 (k0_pay8 (iblk m c 0 t)) k0_pay7 (iblk m c 4 t)

/-- The output block at a step-1 point `t`: the cell function of the old cell state's block and the accumulators
    finished by adding this point's products to what the point before left. -/
def outAt (c : Dev nD) (t : Fin cfg0.N) : Vec F S512x256 .f32 :=
  k0_pay3 (iblk m c 5 t) (k0_pay9 (iblk m c 0 t) (acc0 m c (prev t)) (iblk m c 1 t)) (k0_pay10 (iblk m c 0 t) (acc1 m c (prev t)) (iblk m c 2 t))
    (k0_pay1 (k0_pay11 (iblk m c 0 t) (acc2 m c (prev t)) (iblk m c 3 t))) (k0_pay2 (k0_pay8 (iblk m c 0 t)) (acc3 m c (prev t)) (iblk m c 4 t))

/-! ## The staging memrefs and the accumulators' buffers -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev scM0 : Memref sig .tc .vmem S512x256 .f32 := Memref.whole cc0_scratch0
abbrev scM1 : Memref sig .tc .vmem S512x256 .f32 := Memref.whole cc0_scratch1
abbrev scM2 : Memref sig .tc .vmem S512x256 .f32 := Memref.whole cc0_scratch2
abbrev scM3 : Memref sig .tc .vmem S512x256 .f32 := Memref.whole cc0_scratch3

/-- The accumulators' buffers at anything. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d))

/-- The core's scoped buffers the pipeline does not stage are the four accumulators. -/
theorem scopedRest_scr (c : Dev nD) :
    (Pipeline.scopedRest (Ix := Unit) (Name := ℕ) (U := UR sig nD τ) (Lvl := ℕ) (Val := Elt F) spec0 c : sProp 𝕄) = scrAny c := by
  unfold scrAny; rw [scopedRest0_eq]; simp only [scM0, scM1, scM2, scM3, owns_whole]; try rfl

/-- The invariant before position `n`: at an odd position (between an output block's two steps) the accumulators at
    what step 0 left; at an even one at anything. -/
def PhiS (c : Dev nD) (n : ℕ) (hn : n ≤ cfg0.N) : sProp 𝕄 :=
  if h : n % 2 = 1 then
    iprop(owns (c : Thread nD τ) scM0 fullShare (acc0 m c ⟨n - 1, by omega⟩) ∗ owns (c : Thread nD τ) scM1 fullShare (acc1 m c ⟨n - 1, by omega⟩)
      ∗ owns (c : Thread nD τ) scM2 fullShare (acc2 m c ⟨n - 1, by omega⟩) ∗ owns (c : Thread nD τ) scM3 fullShare (acc3 m c ⟨n - 1, by omega⟩))
  else scrAny c

theorem PhiS_even (c : Dev nD) (n : ℕ) (hn : n ≤ cfg0.N) (h : n % 2 = 0) : PhiS m c n hn = scrAny c := by
  unfold PhiS; rw [dif_neg (by omega)]
theorem PhiS_odd (c : Dev nD) (n : ℕ) (hn : n ≤ cfg0.N) (h : n % 2 = 1) : PhiS m c n hn =
    iprop(owns (c : Thread nD τ) scM0 fullShare (acc0 m c ⟨n - 1, by omega⟩) ∗ owns (c : Thread nD τ) scM1 fullShare (acc1 m c ⟨n - 1, by omega⟩)
      ∗ owns (c : Thread nD τ) scM2 fullShare (acc2 m c ⟨n - 1, by omega⟩) ∗ owns (c : Thread nD τ) scM3 fullShare (acc3 m c ⟨n - 1, by omega⟩)) := by
  unfold PhiS; rw [dif_pos h]

/-- After a step-0 point the accumulators hold that point's first products; -/
theorem PhiS_after_even (c : Dev nD) (t : Fin cfg0.N) (h : t.val % 2 = 0) : PhiS m c (t.val + 1) t.isLt =
    iprop(owns (c : Thread nD τ) scM0 fullShare (acc0 m c t) ∗ owns (c : Thread nD τ) scM1 fullShare (acc1 m c t)
      ∗ owns (c : Thread nD τ) scM2 fullShare (acc2 m c t) ∗ owns (c : Thread nD τ) scM3 fullShare (acc3 m c t)) := by
  rw [PhiS_odd m c _ _ (by omega)]; rfl
/-- before a step-1 point, what the point before left. -/
theorem PhiS_before_odd (c : Dev nD) (t : Fin cfg0.N) (h : t.val % 2 = 1) : PhiS m c t.val (Nat.le_of_lt t.isLt) =
    iprop(owns (c : Thread nD τ) scM0 fullShare (acc0 m c (prev t)) ∗ owns (c : Thread nD τ) scM1 fullShare (acc1 m c (prev t))
      ∗ owns (c : Thread nD τ) scM2 fullShare (acc2 m c (prev t)) ∗ owns (c : Thread nD τ) scM3 fullShare (acc3 m c (prev t))) := by
  rw [PhiS_odd m c _ _ h]; rfl

/-! ## The proof data -/

/-- The arrays as the region finds them; after the body each input's buffer at its block and the output's at the
    output block; the weights' array, read by four windows, lent a quarter of its share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨1, _⟩ => fullShare.left.left
    | ⟨2, _⟩ => fullShare.left.right
    | ⟨3, _⟩ => fullShare.right.left
    | ⟨4, _⟩ => fullShare.right.right
    | _ => fullShare
  owed _ := 0

theorem A_eq (c : Dev nD) (w : Fin cfg0.W) : (dats m 0 c).A w = V m c (Pipeline.arrRef spec0 w) := by
  dsimp only [dats]
theorem after_6 (c : Dev nD) (t : Fin cfg0.N) : (dats m 0 c).after 6 t = outAt m c t := by dsimp only [dats]
theorem Phi_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not, and is left so. -/
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]

/-- The output's window is idle, and not written back, at the step-0 points; live at the step-1 points. -/
theorem idleAt6 : ∀ t : Fin cfg0.N, ¬condL (grid0.coords t) → cfg0.idle 6 (grid0.coords t) = true := by decide +kernel
theorem noFlush6 : ∀ t : Fin cfg0.N, ¬condL (grid0.coords t) → (cfg0.win 6).flush t = false := by decide +kernel
theorem liveAt6 : ∀ t : Fin cfg0.N, condL (grid0.coords t) → cfg0.idle 6 (grid0.coords t) = false := by decide +kernel

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).owesAt () t.succ = (dats m 0 c).owesAt () t.castSucc from rfl]
  rw [show (dats m 0 c).Φ t.succ = PhiS m c (t.val + 1) t.isLt from rfl, Phi_castSucc]
  have hN : t.val < 32 := lt_of_lt_of_eq t.isLt (show cfg0.N = 32 from N_0)
  by_cases h0 : t.val % 2 = 0
  · have hz : condZ (grid0.coords t) := (hcondZ t).mpr h0
    have hl : ¬condL (grid0.coords t) := fun h => by have := (hcondL t).mp h; omega
    rw [Dat.leavesExact_idle (dats m 0 c) 6 t (idleAt6 t hl) (noFlush6 t hl)]
    rw [PhiS_even m c _ _ h0, PhiS_after_even m c t h0]
    unfold scrAny acc0 acc1 acc2 acc3
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ _ _ _ _ hz hl (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : ¬condZ (grid0.coords t) := fun h => h0 ((hcondZ t).mp h)
    have hl : condL (grid0.coords t) := (hcondL t).mpr (by omega)
    rw [show (dats m 0 c).leavesExact 6 t = owns (c : Thread nD τ) (ms6 t) fullShare ((dats m 0 c).after 6 t) from by
      unfold Dat.leavesExact; rw [liveAt6 t hl], after_6]
    rw [PhiS_before_odd m c t (by omega), PhiS_even m c _ _ (by omega)]
    unfold scrAny outAt
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ _ _ _ _ hz hl (iblk m c 0 t) (iblk m c 1 t) (iblk m c 2 t) (iblk m c 3 t) (iblk m c 4 t) (iblk m c 5 t) (acc0 m c (prev t)) (acc1 m c (prev t)) (acc2 m c (prev t)) (acc3 m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The LSTM kernel's run: @main computes the concatenation [x | h] and launches one pipelined region.

  The weights' array reaches the kernel through four windows (one per gate, at four column stripes). The windows only
  read it, so the array's points-to is dealt among them in four quarter shares; everything else about the launch is the
  pipeline library's theorem for a kernel that names no semaphore of its own. The run ends with every windowed array at
  what the library computes from the proof data, and the two arrays no window stages (x and h) as they were.
-/
import proofs.«133570_j39247411151126_2_alg».proof.Proof.KData
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is the concatenation, then the region: at the region's entry the buffers hold `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes only its own result: every other buffer reaches the region as launched. -/
theorem V_of_ne (c : Dev nD) (b : Ref sig .tc) (hb : b ≠ main_v0) : V m c b = m ((c : Thread nD τ).loc b) :=
  StableHlo.after_of_forall_not_mem (b := Proc.devRef .tc b) hostOps0 (fun b => m (c, b)) (fun op hop => by
    simp only [List.mem_cons, List.mem_nil_iff, or_false] at hop
    subst hop
    simp only [StableHlo.binary_writes, Finset.mem_singleton]
    exact StableHlo.devRef_ne_of_ne hb)

/-! ## The arrays at entry: the weights' share dealt to four windows -/

/-- The buffers behind the windows' arrays: [x | h], the weights, the cell state, the result. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_arg3) ↦{fullShare} Vv main_arg3)
          ∗ (((c : Thread nD τ).loc main_arg2) ↦{fullShare} Vv main_arg2) ∗ (((c : Thread nD τ).loc main_v1) ↦{fullShare} Vv main_v1)) := by
  unfold Pipeline.arrBufs
  exact bigSep_eq_bigSepL_of_eq [main_v0, main_arg3, main_arg2, main_v1] (by decide) (by decide) _

/-- The pipeline's arrays, each a whole buffer at its window's share. -/
theorem arrays_eq' (c : Dev nD) (Fw : (w : Fin cfg0.W) → Buf (Elt F) ((cfg0.win w).arr.view.loc (c : Thread nD τ))) :
    ((dats m 0 c).arrays Fw : sProp 𝕄)
      = bigSep Finset.univ fun w => (((c : Thread nD τ).loc (Pipeline.arrRef spec0 w)) ↦{(dats m 0 c).share w} Fw w : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H0, H3, H2, H1⟩
  ihave Hs := (pointsTo_share (PosShare.mem_left_op_right fullShare)).1 $$ H3
  icases Hs with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [H0]; · iexact H0
  isplitl [HLL]; · iexact HLL
  isplitl [HLR]; · iexact HLR
  isplitl [HRL]; · iexact HRL
  isplitl [HRR]; · iexact HRR
  isplitl [H2]; · iexact H2
  iexact H1

/-! ## The invariant at the region's two ends -/

theorem hin (c : Dev nD) :
    iprop(emp ∗ Pipeline.scopedRest (Ix := Unit) (Name := ℕ) (U := UR sig nD τ) (Lvl := ℕ) (Val := Elt F) spec0 c) ⊢ ((dats m 0 c).Φ 0 : sProp 𝕄) := by
  rw [show (dats m 0 c).Φ 0 = PhiS m c 0 (Nat.zero_le _) from rfl, PhiS_even m c 0 _ rfl, scopedRest_scr]
  iintro ⟨-, H⟩; iexact H

theorem hout (c : Dev nD) :
    ((dats m 0 c).Φ (Fin.last cfg0.N) : sProp 𝕄) ⊢ iprop(emp ∗ Pipeline.scopedRest (Ix := Unit) (Name := ℕ) (U := UR sig nD τ) (Lvl := ℕ) (Val := Elt F) spec0 c) := by
  rw [show (dats m 0 c).Φ (Fin.last cfg0.N) = PhiS m c cfg0.N (Nat.le_refl _) from rfl,
    PhiS_even m c _ _ (show cfg0.N % 2 = 0 from by rw [show cfg0.N = 32 from N_0]), scopedRest_scr]
  iintro H; isplitr; · iempintro
  iexact H

/-! ## The run -/

set_option backward.isDefEq.respectTransparency.types false in
/-- At the compiled mesh, for any values, from any memory with zero counters: every weakly fair execution of @main on
    the TensorCores terminates, and every final state has every windowed array at what the library computes from the
    proof data and x and h as they were. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h c => ⟨(h c).1, (h c).2⟩)

/-- info: 'Cert.Kernel.Hand.run_main' depends on axioms: [propext, Classical.choice, Quot.sound] -/
#guard_msgs in #print axioms run_main

/-! ## The frame -/

/-- THE FRAME: the program runs to the end, faults nowhere, and its four argument arrays end as they began — x and h
    because no window stages them and the concatenation does not write them, the cell state and the weights because
    their windows are inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_of_ne m c main_arg0 (by decide)),
     ((h c).2 main_arg1 (Pipeline.mem_restRefs_of main_arg1 rfl (by decide))).trans (V_of_ne m c main_arg1 (by decide)),
     ((h c).1 5).trans (((dats m 0 c).arrAt_in 5 rfl _).trans ((A_eq m c 5).trans (V_of_ne m c main_arg2 (by decide)))),
     ((h c).1 1).trans (((dats m 0 c).arrAt_in 1 rfl _).trans ((A_eq m c 1).trans (V_of_ne m c main_arg3 (by decide))))⟩)
    (run_main m ρ)

end Cert.Kernel.Hand

end
-- ==== Proof.KiBody.lean ====
/-
  The body of the LSTM kernel at one grid point, run symbolically on whole staging buffers.

  The grid is (row block, column block, reduction step) = (2, 8, 2). At reduction step 0 the four gate accumulators
  are zeroed and each receives the product of the row block of [x | h] with its gate's block of W; at step 1 each
  receives the second product on top, and the output block is σ(o) · tanh(c · σ(f) + σ(i) · tanh(g)) of the finished
  accumulators and the old cell state's block. Every load and store is of a whole buffer, so what a buffer holds after
  the body is the payload of the last store into it.
-/
import proofs.«133570_j39247411151126_2_alg».proof.Proof.Gen.KernelIdeal.Launch
import proofs.«133570_j39247411151126_2_alg».proof.Proof.Gen.KernelIdeal.Skeleton
import proofs.«133570_j39247411151126_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction step is the first one (the accumulators are zeroed there). -/
abbrev condZ (i : grid0.Coords) : Prop := (Scalar.cmpi .ne (Scalar.extui (Scalar.cmpi .eq (BitVec.ofNat 32 (i 2).val) 0#32)) 0#32) = 1#1
/-- The reduction step is the last one (the output block is computed there). -/
abbrev condL (i : grid0.Coords) : Prop := k0_cond2 i = 1#1

/-- The first step is at the even points of the grid's row-major order, -/
theorem hcondZ : ∀ t : Fin cfg0.N, condZ (grid0.coords t) ↔ t.val % 2 = 0 :=
  (by decide +kernel : ∀ t : Fin grid0.N, condZ (grid0.coords t) ↔ t.val % 2 = 0)
/-- the last at the odd ones. -/
theorem hcondL : ∀ t : Fin cfg0.N, condL (grid0.coords t) ↔ t.val % 2 = 1 :=
  (by decide +kernel : ∀ t : Fin grid0.N, condL (grid0.coords t) ↔ t.val % 2 = 1)

set_option maxHeartbeats 4000000 in
/-- STEP 0. From the input blocks, the output buffer at anything it holds and the accumulators at anything, the body
    leaves the inputs and the output buffer as they were and each accumulator at zero plus its gate's first product. -/
theorem runA (c : Dev nD) (i : grid0.Coords) (arg3 : Memref sig .tc .vmem S512x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (hz : condZ i) (hl : ¬condL i)
    (x3 : Vec F S512x2048 .f32) (x4 x5 x6 x7 : Vec F S2048x256 .f32) (x8 x9 : Vec F S512x256 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg10 fullShare (k0_pay9 x3 k0_pay4 x4) ∗ owns (c : Thread nD τ) arg11 fullShare (k0_pay10 x3 k0_pay5 x5)
            ∗ owns (c : Thread nD τ) arg12 fullShare (k0_pay1 (k0_pay11 x3 k0_pay6 x6)) ∗ owns (c : Thread nD τ) arg13 fullShare (k0_pay2 (k0_pay8 x3) k0_pay7 x7)) -∗ K ⟨⟩))
      ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | exact hz | exact hl)
  sl_step
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H11]
  · iexists _; isplitr
    swap; · iexact H11
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H12]
  · iexists _; isplitr
    swap; · iexact H12
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  · iexists _; isplitr
    swap; · iexact H13
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]

set_option maxHeartbeats 4000000 in
/-- STEP 1. From the input blocks, the accumulators at what step 0 left (`a10 … a13`) and the output buffer at
    anything, the body leaves the inputs as they were, the accumulators at something, and the output buffer at the
    cell function of the finished accumulators. -/
theorem runB (c : Dev nD) (i : grid0.Coords) (arg3 : Memref sig .tc .vmem S512x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (hz : ¬condZ i) (hl : condL i)
    (x3 : Vec F S512x2048 .f32) (x4 x5 x6 x7 : Vec F S2048x256 .f32) (x8 : Vec F S512x256 .f32) (a10 a11 a12 a13 : Vec F S512x256 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d)
        ∗ owns (c : Thread nD τ) arg10 fullShare a10 ∗ owns (c : Thread nD τ) arg11 fullShare a11 ∗ owns (c : Thread nD τ) arg12 fullShare a12 ∗ owns (c : Thread nD τ) arg13 fullShare a13
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8
            ∗ owns (c : Thread nD τ) arg9 fullShare (k0_pay3 x8 (k0_pay9 x3 a10 x4) (k0_pay10 x3 a11 x5) (k0_pay1 (k0_pay11 x3 a12 x6)) (k0_pay2 (k0_pay8 x3) a13 x7))
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__lstm_kernel i arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8
  obtain rfl := harg10.eq_unread hf10; obtain rfl := harg11.eq_unread hf11; obtain rfl := harg12.eq_unread hf12; obtain rfl := harg13.eq_unread hf13
  sl_exec (disch := first | exact hz | exact hl)
  sl_step
  have hz2 : (![0, 0] : Fin 2 → Nat) = fun _ => 0 := by funext a; fin_cases a <;> rfl
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiledL _ S512x256.size (by sl_kernel_rfl))]
    sl_unfold_words
    rw [View.canon_cons_unit_zero hz2]
    simp only [View.readCov_unit_zero (S := S512x256) _ hz2, View.readAt_eq_ld, harg3.read_unread, harg4.read_unread, harg5.read_unread, harg6.read_unread, harg7.read_unread, harg8.read_unread, harg10.read_unread, harg11.read_unread, harg12.read_unread, harg13.read_unread, View.ld_unit_zero (S := S512x2048) hz2, View.ld_unit_zero (S := S2048x256) hz2, View.ld_unit_zero (S := S512x256) hz2]
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  · iexists _; iexists _; isplitr
    swap; · iexact H13
    ipureintro; rfl

end Cert.KernelIdeal.Hand

end
-- ==== Proof.KiData.lean ====
/-
  What the LSTM kernel's pipeline holds point by point, and the body's obligation at every point.

  The 32 grid points in row-major order pair up: an even point 2n is reduction step 0 of an output block, the odd
  point 2n+1 its step 1. Between the two the four gate accumulators hold the first partial products; before an even
  point (and after the last point) they hold nothing that is named. The output block is computed at the odd points,
  and written back there; at the even points the output's staging buffer is left as found.
-/
import proofs.«133570_j39247411151126_2_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- A core's buffers when the region is entered: the concatenation [x | h] has been computed. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point before `t` (point 0's own predecessor is never consulted). -/
def prev (t : Fin cfg0.N) : Fin cfg0.N := ⟨t.val - 1, Nat.lt_of_le_of_lt (Nat.sub_le _ _) t.isLt⟩

/-! ## The accumulators after step 0, the output block after step 1 -/

/-- Gate f's accumulator after step 0 at point `t`: zero plus the first product. Likewise i, g, o. -/
def acc0 (c : Dev nD) (t : Fin cfg0.N) : Vec F S512x256 .f32 := k0_pay9 (iblk m c 0 t) k0_pay4 (iblk m c 1 t)
def acc1 (c : Dev nD) (t : Fin cfg0.N) : Vec F S512x256 .f32 := k0_pay10 (iblk m c 0 t) k0_pay5 (iblk m c 2 t)
def acc2 (c : Dev nD) (t : Fin cfg0.N) : Vec F S512x256 .f32 := k0_pay1 (k0_pay11 (iblk m c 0 t) k0_pay6 (iblk m c 3 t))
def acc3 (c : Dev nD) (t : Fin cfg0.N) : Vec F S512x256 .f32 := k0_pay2 (k0_pay8 (iblk m c 0 t)) k0_pay7 (iblk m c 4 t)

/-- The output block at a step-1 point `t`: the cell function of the old cell state's block and the accumulators
    finished by adding this point's products to what the point before left. -/
def outAt (c : Dev nD) (t : Fin cfg0.N) : Vec F S512x256 .f32 :=
  k0_pay3 (iblk m c 5 t) (k0_pay9 (iblk m c 0 t) (acc0 m c (prev t)) (iblk m c 1 t)) (k0_pay10 (iblk m c 0 t) (acc1 m c (prev t)) (iblk m c 2 t))
    (k0_pay1 (k0_pay11 (iblk m c 0 t) (acc2 m c (prev t)) (iblk m c 3 t))) (k0_pay2 (k0_pay8 (iblk m c 0 t)) (acc3 m c (prev t)) (iblk m c 4 t))

/-! ## The staging memrefs and the accumulators' buffers -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev scM0 : Memref sig .tc .vmem S512x256 .f32 := Memref.whole cc0_scratch0
abbrev scM1 : Memref sig .tc .vmem S512x256 .f32 := Memref.whole cc0_scratch1
abbrev scM2 : Memref sig .tc .vmem S512x256 .f32 := Memref.whole cc0_scratch2
abbrev scM3 : Memref sig .tc .vmem S512x256 .f32 := Memref.whole cc0_scratch3

/-- The accumulators' buffers at anything. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d))

/-- The core's scoped buffers the pipeline does not stage are the four accumulators. -/
theorem scopedRest_scr (c : Dev nD) :
    (Pipeline.scopedRest (Ix := Unit) (Name := ℕ) (U := UR sig nD τ) (Lvl := ℕ) (Val := Elt F) spec0 c : sProp 𝕄) = scrAny c := by
  unfold scrAny; rw [scopedRest0_eq]; simp only [scM0, scM1, scM2, scM3, owns_whole]; try rfl

/-- The invariant before position `n`: at an odd position (between an output block's two steps) the accumulators at
    what step 0 left; at an even one at anything. -/
def PhiS (c : Dev nD) (n : ℕ) (hn : n ≤ cfg0.N) : sProp 𝕄 :=
  if h : n % 2 = 1 then
    iprop(owns (c : Thread nD τ) scM0 fullShare (acc0 m c ⟨n - 1, by omega⟩) ∗ owns (c : Thread nD τ) scM1 fullShare (acc1 m c ⟨n - 1, by omega⟩)
      ∗ owns (c : Thread nD τ) scM2 fullShare (acc2 m c ⟨n - 1, by omega⟩) ∗ owns (c : Thread nD τ) scM3 fullShare (acc3 m c ⟨n - 1, by omega⟩))
  else scrAny c

theorem PhiS_even (c : Dev nD) (n : ℕ) (hn : n ≤ cfg0.N) (h : n % 2 = 0) : PhiS m c n hn = scrAny c := by
  unfold PhiS; rw [dif_neg (by omega)]
theorem PhiS_odd (c : Dev nD) (n : ℕ) (hn : n ≤ cfg0.N) (h : n % 2 = 1) : PhiS m c n hn =
    iprop(owns (c : Thread nD τ) scM0 fullShare (acc0 m c ⟨n - 1, by omega⟩) ∗ owns (c : Thread nD τ) scM1 fullShare (acc1 m c ⟨n - 1, by omega⟩)
      ∗ owns (c : Thread nD τ) scM2 fullShare (acc2 m c ⟨n - 1, by omega⟩) ∗ owns (c : Thread nD τ) scM3 fullShare (acc3 m c ⟨n - 1, by omega⟩)) := by
  unfold PhiS; rw [dif_pos h]

/-- After a step-0 point the accumulators hold that point's first products; -/
theorem PhiS_after_even (c : Dev nD) (t : Fin cfg0.N) (h : t.val % 2 = 0) : PhiS m c (t.val + 1) t.isLt =
    iprop(owns (c : Thread nD τ) scM0 fullShare (acc0 m c t) ∗ owns (c : Thread nD τ) scM1 fullShare (acc1 m c t)
      ∗ owns (c : Thread nD τ) scM2 fullShare (acc2 m c t) ∗ owns (c : Thread nD τ) scM3 fullShare (acc3 m c t)) := by
  rw [PhiS_odd m c _ _ (by omega)]; rfl
/-- before a step-1 point, what the point before left. -/
theorem PhiS_before_odd (c : Dev nD) (t : Fin cfg0.N) (h : t.val % 2 = 1) : PhiS m c t.val (Nat.le_of_lt t.isLt) =
    iprop(owns (c : Thread nD τ) scM0 fullShare (acc0 m c (prev t)) ∗ owns (c : Thread nD τ) scM1 fullShare (acc1 m c (prev t))
      ∗ owns (c : Thread nD τ) scM2 fullShare (acc2 m c (prev t)) ∗ owns (c : Thread nD τ) scM3 fullShare (acc3 m c (prev t))) := by
  rw [PhiS_odd m c _ _ h]; rfl

/-! ## The proof data -/

/-- The arrays as the region finds them; after the body each input's buffer at its block and the output's at the
    output block; the weights' array, read by four windows, lent a quarter of its share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨1, _⟩ => fullShare.left.left
    | ⟨2, _⟩ => fullShare.left.right
    | ⟨3, _⟩ => fullShare.right.left
    | ⟨4, _⟩ => fullShare.right.right
    | _ => fullShare
  owed _ := 0

theorem A_eq (c : Dev nD) (w : Fin cfg0.W) : (dats m 0 c).A w = V m c (Pipeline.arrRef spec0 w) := by
  dsimp only [dats]
theorem after_6 (c : Dev nD) (t : Fin cfg0.N) : (dats m 0 c).after 6 t = outAt m c t := by dsimp only [dats]
theorem Phi_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not, and is left so. -/
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]

/-- The output's window is idle, and not written back, at the step-0 points; live at the step-1 points. -/
theorem idleAt6 : ∀ t : Fin cfg0.N, ¬condL (grid0.coords t) → cfg0.idle 6 (grid0.coords t) = true := by decide +kernel
theorem noFlush6 : ∀ t : Fin cfg0.N, ¬condL (grid0.coords t) → (cfg0.win 6).flush t = false := by decide +kernel
theorem liveAt6 : ∀ t : Fin cfg0.N, condL (grid0.coords t) → cfg0.idle 6 (grid0.coords t) = false := by decide +kernel

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).owesAt () t.succ = (dats m 0 c).owesAt () t.castSucc from rfl]
  rw [show (dats m 0 c).Φ t.succ = PhiS m c (t.val + 1) t.isLt from rfl, Phi_castSucc]
  have hN : t.val < 32 := lt_of_lt_of_eq t.isLt (show cfg0.N = 32 from N_0)
  by_cases h0 : t.val % 2 = 0
  · have hz : condZ (grid0.coords t) := (hcondZ t).mpr h0
    have hl : ¬condL (grid0.coords t) := fun h => by have := (hcondL t).mp h; omega
    rw [Dat.leavesExact_idle (dats m 0 c) 6 t (idleAt6 t hl) (noFlush6 t hl)]
    rw [PhiS_even m c _ _ h0, PhiS_after_even m c t h0]
    unfold scrAny acc0 acc1 acc2 acc3
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ _ _ _ _ hz hl (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : ¬condZ (grid0.coords t) := fun h => h0 ((hcondZ t).mp h)
    have hl : condL (grid0.coords t) := (hcondL t).mpr (by omega)
    rw [show (dats m 0 c).leavesExact 6 t = owns (c : Thread nD τ) (ms6 t) fullShare ((dats m 0 c).after 6 t) from by
      unfold Dat.leavesExact; rw [liveAt6 t hl], after_6]
    rw [PhiS_before_odd m c t (by omega), PhiS_even m c _ _ (by omega)]
    unfold scrAny outAt
    iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ _ _ _ _ _ _ hz hl (iblk m c 0 t) (iblk m c 1 t) (iblk m c 2 t) (iblk m c 3 t) (iblk m c 4 t) (iblk m c 5 t) (acc0 m c (prev t)) (acc1 m c (prev t)) (acc2 m c (prev t)) (acc3 m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiRun.lean ====
/-
  The LSTM kernel's run: @main computes the concatenation [x | h] and launches one pipelined region.

  The weights' array reaches the kernel through four windows (one per gate, at four column stripes). The windows only
  read it, so the array's points-to is dealt among them in four quarter shares; everything else about the launch is the
  pipeline library's theorem for a kernel that names no semaphore of its own. The run ends with every windowed array at
  what the library computes from the proof data, and the two arrays no window stages (x and h) as they were.
-/
import proofs.«133570_j39247411151126_2_alg».proof.Proof.KiData
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is the concatenation, then the region: at the region's entry the buffers hold `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes only its own result: every other buffer reaches the region as launched. -/
theorem V_of_ne (c : Dev nD) (b : Ref sig .tc) (hb : b ≠ main_v0) : V m c b = m ((c : Thread nD τ).loc b) :=
  StableHlo.after_of_forall_not_mem (b := Proc.devRef .tc b) hostOps0 (fun b => m (c, b)) (fun op hop => by
    simp only [List.mem_cons, List.mem_nil_iff, or_false] at hop
    subst hop
    simp only [StableHlo.binary_writes, Finset.mem_singleton]
    exact StableHlo.devRef_ne_of_ne hb)

/-! ## The arrays at entry: the weights' share dealt to four windows -/

/-- The buffers behind the windows' arrays: [x | h], the weights, the cell state, the result. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_arg3) ↦{fullShare} Vv main_arg3)
          ∗ (((c : Thread nD τ).loc main_arg2) ↦{fullShare} Vv main_arg2) ∗ (((c : Thread nD τ).loc main_v1) ↦{fullShare} Vv main_v1)) := by
  unfold Pipeline.arrBufs
  exact bigSep_eq_bigSepL_of_eq [main_v0, main_arg3, main_arg2, main_v1] (by decide) (by decide) _

/-- The pipeline's arrays, each a whole buffer at its window's share. -/
theorem arrays_eq' (c : Dev nD) (Fw : (w : Fin cfg0.W) → Buf (Elt F) ((cfg0.win w).arr.view.loc (c : Thread nD τ))) :
    ((dats m 0 c).arrays Fw : sProp 𝕄)
      = bigSep Finset.univ fun w => (((c : Thread nD τ).loc (Pipeline.arrRef spec0 w)) ↦{(dats m 0 c).share w} Fw w : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H0, H3, H2, H1⟩
  ihave Hs := (pointsTo_share (PosShare.mem_left_op_right fullShare)).1 $$ H3
  icases Hs with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [H0]; · iexact H0
  isplitl [HLL]; · iexact HLL
  isplitl [HLR]; · iexact HLR
  isplitl [HRL]; · iexact HRL
  isplitl [HRR]; · iexact HRR
  isplitl [H2]; · iexact H2
  iexact H1

/-! ## The invariant at the region's two ends -/

theorem hin (c : Dev nD) :
    iprop(emp ∗ Pipeline.scopedRest (Ix := Unit) (Name := ℕ) (U := UR sig nD τ) (Lvl := ℕ) (Val := Elt F) spec0 c) ⊢ ((dats m 0 c).Φ 0 : sProp 𝕄) := by
  rw [show (dats m 0 c).Φ 0 = PhiS m c 0 (Nat.zero_le _) from rfl, PhiS_even m c 0 _ rfl, scopedRest_scr]
  iintro ⟨-, H⟩; iexact H

theorem hout (c : Dev nD) :
    ((dats m 0 c).Φ (Fin.last cfg0.N) : sProp 𝕄) ⊢ iprop(emp ∗ Pipeline.scopedRest (Ix := Unit) (Name := ℕ) (U := UR sig nD τ) (Lvl := ℕ) (Val := Elt F) spec0 c) := by
  rw [show (dats m 0 c).Φ (Fin.last cfg0.N) = PhiS m c cfg0.N (Nat.le_refl _) from rfl,
    PhiS_even m c _ _ (show cfg0.N % 2 = 0 from by rw [show cfg0.N = 32 from N_0]), scopedRest_scr]
  iintro H; isplitr; · iempintro
  iexact H

/-! ## The run -/

set_option backward.isDefEq.respectTransparency.types false in
/-- At the compiled mesh, for any values, from any memory with zero counters: every weakly fair execution of @main on
    the TensorCores terminates, and every final state has every windowed array at what the library computes from the
    proof data and x and h as they were. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h c => ⟨(h c).1, (h c).2⟩)

/-- info: 'Cert.KernelIdeal.Hand.run_main' depends on axioms: [propext, Classical.choice, Quot.sound] -/
#guard_msgs in #print axioms run_main

/-! ## The frame -/

/-- THE FRAME: the program runs to the end, faults nowhere, and its four argument arrays end as they began — x and h
    because no window stages them and the concatenation does not write them, the cell state and the weights because
    their windows are inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 rfl (by decide))).trans (V_of_ne m c main_arg0 (by decide)),
     ((h c).2 main_arg1 (Pipeline.mem_restRefs_of main_arg1 rfl (by decide))).trans (V_of_ne m c main_arg1 (by decide)),
     ((h c).1 5).trans (((dats m 0 c).arrAt_in 5 rfl _).trans ((A_eq m c 5).trans (V_of_ne m c main_arg2 (by decide)))),
     ((h c).1 1).trans (((dats m 0 c).arrAt_in 1 rfl _).trans ((A_eq m c 1).trans (V_of_ne m c main_arg3 (by decide))))⟩)
    (run_main m ρ)

end Cert.KernelIdeal.Hand

end
-- ==== Proof.LstmSpec.lean ====
/-
  The LSTM cell step as one function of the arrays, index by index, on the extended reals.

  With `mg` the row-wise concatenation [x | h] (1024 × 4096), `W` the weights (4096 × 8192, the four gates f, i, g, o in
  four column stripes of width 2048) and `cs` the cell state (1024 × 2048), the pre-activation of gate `g` at row `r` and
  hidden unit `q` is the inner product of row `r` of `mg` with column `g·2048 + q` of `W`; the new cell state is
  cs · σ(f) + σ(i) · tanh(g) and the new hidden state σ(o) · tanh(new cell state), with σ x = 1 / (1 + e^(−x)).
-/
import Idealize.ShloMosaic.PureOps.Ideal
import Idealize.ShloMosaic.Lib.ValueIdx

noncomputable section

namespace Cert.LstmSpec

open Idealize.ShloMosaic Idealize.ShloMosaic.ValueIdx
open scoped BigOperators

/-- The shapes of the concatenated input, the weights and the state. -/
abbrev SM : Shape := ⟨2, ![1024, 4096]⟩
abbrev SW : Shape := ⟨2, ![4096, 8192]⟩
abbrev SC : Shape := ⟨2, ![1024, 2048]⟩

/-- The column of `W` that feeds gate `g` of hidden unit `q`. -/
def gcol (g : Fin 4) (q : Fin 2048) : Fin 8192 := ⟨g.val * 2048 + q.val, by omega⟩

/-- Gate `g`'s pre-activation at row `r`, hidden unit `q`: row `r` of `mg` against column `gcol g q` of `W`. -/
def pre (mg : SM.Idx → EReal) (W : SW.Idx → EReal) (g : Fin 4) (r : Fin 1024) (q : Fin 2048) : EReal :=
  ∑ k : Fin 4096, mg (ix2 r k) * W (ix2 k (gcol g q))

/-- The new hidden state from four pre-activations and the old cell state. -/
def gate (f i g o cst : EReal) : EReal :=
  Ideal.logistic o * Ideal.tanh (cst * Ideal.logistic f + Ideal.logistic i * Ideal.tanh g)

/-- The new hidden state, index by index. -/
def cell (mg : SM.Idx → EReal) (cs : SC.Idx → EReal) (W : SW.Idx → EReal) : SC.Idx → EReal := fun j =>
  gate (pre mg W 0 (j 0) (j 1)) (pre mg W 1 (j 0) (j 1)) (pre mg W 2 (j 0) (j 1)) (pre mg W 3 (j 0) (j 1)) (cs j)

/-- A sum over 4096 terms is the sum of its two halves; written with a leading zero, the form in which an accumulator
    that starts from zero and adds one half per step ends up. Addition on the extended reals is commutative and
    associative, so no finiteness is needed. -/
theorem sum_halves (f : Fin 4096 → EReal) :
    ∑ k : Fin 4096, f k
      = (0 + ∑ k : Fin 2048, f ⟨k.val, by omega⟩) + ∑ k : Fin 2048, f ⟨2048 + k.val, by omega⟩ := by
  rw [zero_add]
  have h := Fin.sum_univ_add (a := 2048) (b := 2048) (fun k : Fin (2048 + 2048) => f ⟨k.val, k.isLt⟩)
  refine (show ∑ k : Fin 4096, f k = ∑ k : Fin (2048 + 2048), f ⟨k.val, k.isLt⟩ from rfl).trans (h.trans ?_)
  rfl

end Cert.LstmSpec

end
-- ==== Proof.RefCell.lean ====
/-
  The reference program is the specification.

  The reference computes the row-wise concatenation [x | h], one inner product per output column against the weights,
  cuts the 8192 columns into the four stripes of width 2048 (forget, input, candidate and output gate, in that order),
  spells each sigmoid as 1 / (1 + e^(-z)) with the constant one broadcast, and combines them as
  σ(o) · tanh (cs · σ(f) + σ(i) · tanh g). Read at an index, each stripe's element is the inner product of a row of the
  concatenation with the column g·2048 + q of the weights, which is the specification's pre-activation, and the
  elementwise part is the specification's gate function by unfolding.
-/
import proofs.«133570_j39247411151126_2_alg».proof.Proof.Gen.ReferenceIdeal.Read
import proofs.«133570_j39247411151126_2_alg».proof.Proof.LstmSpec
import Idealize.ShloMosaic.Lib.IdealHost

noncomputable section

namespace Cert.RefCell

open Cert.ReferenceIdeal Cert.ReferenceIdeal.Read Cert.LstmSpec
open Idealize.ShloMosaic Idealize.ShloMosaic.ValueIdx
open scoped BigOperators

/-- The inner-product stage read at an index whose row is `r` and whose column is `g·2048 + q` is gate `g`'s
    pre-activation at `(r, q)`: the two operand indices of the `k`-th term are `(r, k)` and `(k, g·2048 + q)`,
    coordinate by coordinate, and the sum stays a sum over the 4096 positions. -/
theorem v1_eq_pre (x h : (⟨S1024x2048, .f32⟩ : BufTy).Contents (Elt Ideal))
    (W : (⟨S4096x8192, .f32⟩ : BufTy).Contents (Elt Ideal)) (i : S1024x8192.Idx) (g : Fin 4) (r : Fin 1024)
    (q : Fin 2048) (h0 : (i 0).val = r.val) (h1 : (i 1).val = g.val * 2048 + q.val) :
    val_main_v1 (F := Ideal) x h W i = pre (val_main_v0 (F := Ideal) x h) W g r q := by
  rw [val_main_v1_apply]
  unfold pre
  refine Finset.sum_congr rfl fun k _ => ?_
  have el : lidx_main_v1 i k = ix2 r k := funext fun a => Fin.ext (by
    match a with
    | ⟨0, _⟩ => exact h0
    | ⟨1, _⟩ => rfl)
  have er : ridx_main_v1 i k = ix2 k (gcol g q) := funext fun a => Fin.ext (by
    match a with
    | ⟨0, _⟩ => rfl
    | ⟨1, _⟩ => exact h1)
  rw [el, er]

/-- The first stripe (columns 0 to 2047) holds the forget gate's pre-activations. -/
theorem v2_eq_pre (x h : (⟨S1024x2048, .f32⟩ : BufTy).Contents (Elt Ideal))
    (W : (⟨S4096x8192, .f32⟩ : BufTy).Contents (Elt Ideal)) (j : S1024x2048.Idx) :
    val_main_v2 (F := Ideal) x h W j = pre (val_main_v0 (F := Ideal) x h) W 0 (j 0) (j 1) := by
  rw [val_main_v2_apply]
  exact v1_eq_pre x h W (idx_main_v2 j) 0 (j 0) (j 1) rfl (by show (j 1).val = 0 * 2048 + (j 1).val; omega)

/-- The second stripe (columns 2048 to 4095) holds the input gate's pre-activations. -/
theorem v3_eq_pre (x h : (⟨S1024x2048, .f32⟩ : BufTy).Contents (Elt Ideal))
    (W : (⟨S4096x8192, .f32⟩ : BufTy).Contents (Elt Ideal)) (j : S1024x2048.Idx) :
    val_main_v3 (F := Ideal) x h W j = pre (val_main_v0 (F := Ideal) x h) W 1 (j 0) (j 1) := by
  rw [val_main_v3_apply]
  exact v1_eq_pre x h W (idx_main_v3 j) 1 (j 0) (j 1) rfl (by show 2048 + (j 1).val = 1 * 2048 + (j 1).val; omega)

/-- The third stripe (columns 4096 to 6143) holds the candidate's pre-activations. -/
theorem v4_eq_pre (x h : (⟨S1024x2048, .f32⟩ : BufTy).Contents (Elt Ideal))
    (W : (⟨S4096x8192, .f32⟩ : BufTy).Contents (Elt Ideal)) (j : S1024x2048.Idx) :
    val_main_v4 (F := Ideal) x h W j = pre (val_main_v0 (F := Ideal) x h) W 2 (j 0) (j 1) := by
  rw [val_main_v4_apply]
  exact v1_eq_pre x h W (idx_main_v4 j) 2 (j 0) (j 1) rfl (by show 4096 + (j 1).val = 2 * 2048 + (j 1).val; omega)

/-- The fourth stripe (columns 6144 to 8191) holds the output gate's pre-activations. -/
theorem v5_eq_pre (x h : (⟨S1024x2048, .f32⟩ : BufTy).Contents (Elt Ideal))
    (W : (⟨S4096x8192, .f32⟩ : BufTy).Contents (Elt Ideal)) (j : S1024x2048.Idx) :
    val_main_v5 (F := Ideal) x h W j = pre (val_main_v0 (F := Ideal) x h) W 3 (j 0) (j 1) := by
  rw [val_main_v5_apply]
  exact v1_eq_pre x h W (idx_main_v5 j) 3 (j 0) (j 1) rfl (by show 6144 + (j 1).val = 3 * 2048 + (j 1).val; omega)

/-- The sigmoid spelled as negate, exponential, one plus, one over, with the single-precision pattern of one as the
    constant, is the logistic function: the pattern denotes the extended real one, and the logistic function is by
    definition the quotient of one by one plus the exponential of the negation. -/
theorem spelled_sigmoid (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-- The reference's result is the specification's cell step applied to the concatenation [x | h], the cell state and
    the weights. -/
theorem ref_eq (x h cs : (⟨S1024x2048, .f32⟩ : BufTy).Contents (Elt Ideal))
    (W : (⟨S4096x8192, .f32⟩ : BufTy).Contents (Elt Ideal)) :
    val_main_v29 (F := Ideal) x h cs W = cell (val_main_v0 (F := Ideal) x h) cs W := by
  funext j
  rw [val_main_v29_apply, val_main_v27_apply, val_main_v28_apply, val_main_v21_apply, val_main_v12_apply,
    val_main_v20_apply, val_main_v11_apply, val_main_v18_apply, val_main_v19_apply,
    val_main_v25_apply, val_main_v16_apply, val_main_v9_apply,
    val_main_v23_apply, val_main_v14_apply, val_main_v7_apply,
    val_main_v22_apply, val_main_v13_apply, val_main_v6_apply,
    val_main_v26_apply, val_main_v24_apply, val_main_v17_apply, val_main_v15_apply, val_main_v10_apply,
    val_main_v8_apply,
    val_main_cst_apply, val_main_cst_0_apply, val_main_cst_1_apply, val_main_cst_2_apply, val_main_cst_3_apply,
    val_main_cst_4_apply,
    v2_eq_pre, v3_eq_pre, v4_eq_pre, v5_eq_pre,
    spelled_sigmoid, spelled_sigmoid, spelled_sigmoid]
  simp only [Ideal.mulf_def, Ideal.addf_def, Ideal.hostUnary_tanh_def]
  rfl

end Cert.RefCell

end
-- ==== Proof.KiFinal.lean ====
/-
  From the output blocks to the output array.

  The output (1024 × 2048) is tiled by 2 × 8 blocks of 512 × 256. The 32 grid points run over (row block, column
  block, reduction step) in row-major order, so point t works on row block t / 16 and column block (t / 2) mod 8, and
  writes its block back exactly when it is a step-1 point (t odd). If what every odd point leaves in the output's
  staging buffer is its block of one function G of the whole array, the array ends holding G: every index (r, s) lies
  in the block of the odd point (r / 512) · 16 + (s / 256) · 2 + 1.
-/
import proofs.«133570_j39247411151126_2_alg».proof.Proof.KiData
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The output window's block index at point `t`, decided once over the 32 grid points: row block `t / 16`, column
    block `(t / 2) mod 8`. -/
theorem idx6 : ∀ t : Fin cfg0.N, win0_6.index t (0 : Fin 2) = t.val / 16 ∧ win0_6.index t (1 : Fin 2) = (t.val / 2) % 8 :=
  (by decide +kernel : ∀ t : Fin grid0.N, _)

/-- An index of the output array is in point `t`'s block iff each coordinate is in the block's range on its axis. -/
theorem mem_blk6 (t : Fin cfg0.N) (i : S1024x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v1).slice (win0_6.rect t)).set ↔ _
  rw [View.set_slice_whole, Rect.mem_set_unit]
  exact Iff.rfl

/-- What a step-1 point `t` writes back is block `t` of `G`, when the block it leaves is `G` at the rows
    `(t / 16) · 512 + p` and the columns `((t / 2) mod 8) · 256 + q`. The block is not cut (the blocks tile the
    array), so what is written back is all of what the body left. -/
theorem flushed6_eq (c : Dev nD) (G : (⟨S1024x2048, .f32⟩ : BufTy).Contents (Elt F))
    (hblk : ∀ (t : Fin cfg0.N), t.val % 2 = 1 → ∀ (p : Fin 512) (q : Fin 256),
      outAt m c t (ix2 p q) = G (ix2 ⟨(t.val / 16) * 512 + p.val, by have := t.isLt; have hN : cfg0.N = 32 := N_0; omega⟩
        ⟨((t.val / 2) % 8) * 256 + q.val, by omega⟩))
    (t : Fin cfg0.N) (hf : (cfg0.win 6).flush t = true) :
    (dats m 0 c).flushed 6 t = ((cfg0.win 6).blk t).view.read (Elt F) G := by
  have ht : t.val % 2 = 1 := (flush0_6 t).mp hf
  show (cfg0.win 6).cut (grid0.coords t) ((dats m 0 c).after 6 t) = _
  rw [after_6]
  refine funext fun (y : S512x256.Idx) => ?_
  obtain ⟨p, q, rfl⟩ : ∃ (p : Fin 512) (q : Fin 256), y = ix2 p q := ⟨y 0, y 1, eq_ix2 y⟩
  show outAt m c t (ix2 p q) = G (((cfg0.win 6).blk t).view.emb (ix2 p q))
  rw [hblk t ht p q]
  refine congrArg G ?_
  obtain ⟨e0, e1⟩ := idx6 t
  funext a
  apply Fin.ext
  match a with
  | ⟨0, _⟩ => show t.val / 16 * 512 + p.val = win0_6.index t (0 : Fin 2) * 512 + 1 * p.val; rw [e0]; omega
  | ⟨1, _⟩ => show t.val / 2 % 8 * 256 + q.val = win0_6.index t (1 : Fin 2) * 256 + 1 * q.val; rw [e1]; omega

/-- Every index of the output array is in the block of a point that writes back: `(r, s)` in that of the step-1 point
    of row block `r / 512` and column block `s / 256`. -/
theorem covered6 (i : S1024x2048.Idx) :
    ∃ t : Fin cfg0.N, (cfg0.win 6).flush t = true ∧ i ∈ ((cfg0.win 6).blk t).view.set := by
  have hi0 : (i 0).val < 1024 := (i 0).isLt
  have hi1 : (i 1).val < 2048 := (i 1).isLt
  have hN : cfg0.N = 32 := N_0
  refine ⟨⟨(i 0).val / 512 * 16 + (i 1).val / 256 * 2 + 1, by rw [hN]; omega⟩, (flush0_6 _).mpr (by show ((i 0).val / 512 * 16 + (i 1).val / 256 * 2 + 1) % 2 = 1; omega), ?_⟩
  rw [mem_blk6]
  obtain ⟨e0, e1⟩ := idx6 ⟨(i 0).val / 512 * 16 + (i 1).val / 256 * 2 + 1, by rw [hN]; omega⟩
  have v : (⟨(i 0).val / 512 * 16 + (i 1).val / 256 * 2 + 1, by rw [hN]; omega⟩ : Fin cfg0.N).val = (i 0).val / 512 * 16 + (i 1).val / 256 * 2 + 1 := rfl
  intro a
  match a with
  | ⟨0, _⟩ =>
    show win0_6.index _ (0 : Fin 2) * 512 ≤ (i 0).val ∧ (i 0).val < win0_6.index _ (0 : Fin 2) * 512 + 512
    rw [e0, v]; omega
  | ⟨1, _⟩ =>
    show win0_6.index _ (1 : Fin 2) * 256 ≤ (i 1).val ∧ (i 1).val < win0_6.index _ (1 : Fin 2) * 256 + 256
    rw [e1, v]; omega

/-- THE OUTPUT ARRAY after the run is `G`, for any whole-array function `G` whose block at every step-1 point is
    what that point leaves in the output's staging buffer. -/
theorem final_of (c : Dev nD) (G : (⟨S1024x2048, .f32⟩ : BufTy).Contents (Elt F))
    (hblk : ∀ (t : Fin cfg0.N), t.val % 2 = 1 → ∀ (p : Fin 512) (q : Fin 256),
      outAt m c t (ix2 p q) = G (ix2 ⟨(t.val / 16) * 512 + p.val, by have := t.isLt; have hN : cfg0.N = 32 := N_0; omega⟩
        ⟨((t.val / 2) % 8) * 256 + q.val, by omega⟩)) :
    (dats m 0 c).arrAt 6 cfg0.N = G :=
  (dats m 0 c).arrAt_eq_of_cover 6 G (flushed6_eq m c G hblk) covered6

end Cert.KernelIdeal.Hand

end
-- ==== Proof.PayAt.lean ====
/-
  The kernel's payloads read at an index, at the ideal values.

  Each accumulator block starts as the zero block; one step of the reduction adds to an accumulator the product of the
  512 × 2048 block of the input with a 2048 × 256 block of the weights, and on the extended reals the narrowing format
  changes in front of the product are the identity, so the step at row p, column q is
  a(p, q) + Σ_k v(p, k) · w(k, q). The output payload is, index by index, the gate formula of the specification:
  σ(o) · tanh (c · σ(f) + σ(i) · tanh g).
-/
import proofs.«133570_j39247411151126_2_alg».proof.Proof.Gen.KernelIdeal.Skeleton
import proofs.«133570_j39247411151126_2_alg».proof.Proof.LstmSpec
import Idealize.ShloMosaic.PureOps.Ideal.Laws
import Idealize.ShloMosaic.Lib.ValueIdx
import Idealize.ShloMosaic.Lib.Pipeline.Value

noncomputable section

namespace Cert.PayAt

open Cert.KernelIdeal Cert.KernelIdeal.Gen Idealize.ShloMosaic Idealize.ShloMosaic.ValueIdx Idealize.SL.Sem
open scoped BigOperators

/-! ## The zero payloads -/

/-- The first accumulator's initial block is zero everywhere. -/
theorem pay4_apply (j : S512x256.Idx) : Gen.k0_pay4 (F := Ideal) j = 0 := by
  unfold Gen.k0_pay4
  rw [shapeCast_self]
  exact Ideal.ofBits_zero_f32

/-- The second accumulator's initial block is zero everywhere. -/
theorem pay5_apply (j : S512x256.Idx) : Gen.k0_pay5 (F := Ideal) j = 0 := by
  unfold Gen.k0_pay5
  rw [shapeCast_self]
  exact Ideal.ofBits_zero_f32

/-- The third accumulator's initial block is zero everywhere. -/
theorem pay6_apply (j : S512x256.Idx) : Gen.k0_pay6 (F := Ideal) j = 0 := by
  unfold Gen.k0_pay6
  rw [shapeCast_self]
  exact Ideal.ofBits_zero_f32

/-- The fourth accumulator's initial block is zero everywhere. -/
theorem pay7_apply (j : S512x256.Idx) : Gen.k0_pay7 (F := Ideal) j = 0 := by
  unfold Gen.k0_pay7
  rw [shapeCast_self]
  exact Ideal.ofBits_zero_f32

/-! ## The product of a 512 × 2048 block with a 2048 × 256 block, into zero -/

/-- Coordinate 0 of the left operand's index is the output's row. -/
theorem lhs_0 (i : S512x256.Idx) (c : dot_S512x2048_S2048x256_S512x256_1_0_0_1_n_n.contr.Idx) :
    (dot_S512x2048_S2048x256_S512x256_1_0_0_1_n_n.lhsIdx i c 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl

/-- Coordinate 1 of the left operand's index is the contraction coordinate. -/
theorem lhs_1 (i : S512x256.Idx) (c : dot_S512x2048_S2048x256_S512x256_1_0_0_1_n_n.contr.Idx) :
    (dot_S512x2048_S2048x256_S512x256_1_0_0_1_n_n.lhsIdx i c 1).val = (c ⟨0, by decide⟩).val :=
  dot_S512x2048_S2048x256_S512x256_1_0_0_1_n_n.lhsIdx_val_of_single rfl i c

/-- Coordinate 0 of the right operand's index is the contraction coordinate. -/
theorem rhs_0 (i : S512x256.Idx) (c : dot_S512x2048_S2048x256_S512x256_1_0_0_1_n_n.contr.Idx) :
    (dot_S512x2048_S2048x256_S512x256_1_0_0_1_n_n.rhsIdx i c 0).val = (c ⟨0, by decide⟩).val :=
  dot_S512x2048_S2048x256_S512x256_1_0_0_1_n_n.rhsIdx_val_of_single rfl i c

/-- Coordinate 1 of the right operand's index is the output's column. -/
theorem rhs_1 (i : S512x256.Idx) (c : dot_S512x2048_S2048x256_S512x256_1_0_0_1_n_n.contr.Idx) :
    (dot_S512x2048_S2048x256_S512x256_1_0_0_1_n_n.rhsIdx i c 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- The left operand's index at output (p, q) and contraction coordinate k is (p, k). -/
theorem lhsIdx_eq (p : Fin 512) (q : Fin 256) (k : Fin 2048) :
    dot_S512x2048_S2048x256_S512x256_1_0_0_1_n_n.lhsIdx (ix2 p q)
        ((contrEquiv1 dot_S512x2048_S2048x256_S512x256_1_0_0_1_n_n 2048 rfl rfl).symm k) = ix2 p k := by
  have hk := contrEquiv1_symm_val dot_S512x2048_S2048x256_S512x256_1_0_0_1_n_n 2048 rfl rfl k
  exact funext fun a => Fin.ext (by
    match a with
    | ⟨0, _⟩ => exact lhs_0 _ _
    | ⟨1, _⟩ => exact (lhs_1 _ _).trans hk)

/-- The right operand's index at output (p, q) and contraction coordinate k is (k, q). -/
theorem rhsIdx_eq (p : Fin 512) (q : Fin 256) (k : Fin 2048) :
    dot_S512x2048_S2048x256_S512x256_1_0_0_1_n_n.rhsIdx (ix2 p q)
        ((contrEquiv1 dot_S512x2048_S2048x256_S512x256_1_0_0_1_n_n 2048 rfl rfl).symm k) = ix2 k q := by
  have hk := contrEquiv1_symm_val dot_S512x2048_S2048x256_S512x256_1_0_0_1_n_n 2048 rfl rfl k
  exact funext fun a => Fin.ext (by
    match a with
    | ⟨0, _⟩ => exact (rhs_0 _ _).trans hk
    | ⟨1, _⟩ => exact rhs_1 _ _)

/-- The product into the zero block, read at (p, q): the inner product of row p of the left operand with column q of
    the right one. The narrowing format changes in front of it are the identity on the extended reals. -/
theorem matmul_zero_apply (A : FVec Ideal S512x2048 .f32) (B : FVec Ideal S2048x256 .f32) (p : Fin 512) (q : Fin 256) :
    matmul (F := Ideal) dot_S512x2048_S2048x256_S512x256_1_0_0_1_n_n none
        (truncf .bf16 A bitsLt_bf16_f32) (truncf .bf16 B bitsLt_bf16_f32)
        (constant (F := Ideal) S512x256 .f32 0x00000000#32) (ix2 p q)
      = ∑ k : Fin 2048, A (ix2 p k) * B (ix2 k q) := by
  refine (Ideal.matmul_constant_zero_apply dot_S512x2048_S2048x256_S512x256_1_0_0_1_n_n none
    (truncf .bf16 A bitsLt_bf16_f32) (truncf .bf16 B bitsLt_bf16_f32) (ix2 p q)).trans ?_
  rw [← Equiv.sum_comp (contrEquiv1 dot_S512x2048_S2048x256_S512x256_1_0_0_1_n_n 2048 rfl rfl).symm]
  refine Finset.sum_congr rfl fun k _ => ?_
  rw [lhsIdx_eq p q k, rhsIdx_eq p q k]
  rfl

/-! ## The accumulate step -/

/-- The left operand of every product: the input block, its same-shape cast and its narrowing both the identity. -/
theorem pay8_eq (v3 : Vec Ideal S512x2048 .f32) :
    Gen.k0_pay8 (F := Ideal) v3 = truncf .bf16 (v3 : FVec Ideal S512x2048 .f32) bitsLt_bf16_f32 := by
  unfold Gen.k0_pay8
  rw [shapeCast_self]

theorem pay9_apply (v3 : Vec Ideal S512x2048 .f32) (a : Vec Ideal S512x256 .f32) (w : Vec Ideal S2048x256 .f32)
    (p : Fin 512) (q : Fin 256) :
    Gen.k0_pay9 (F := Ideal) v3 a w (ix2 p q) = a (ix2 p q) + ∑ k : Fin 2048, v3 (ix2 p k) * w (ix2 k q) := by
  unfold Gen.k0_pay9
  rw [shapeCast_self, pay8_eq]
  exact congrArg (a (ix2 p q) + ·) (matmul_zero_apply v3 w p q)

theorem pay10_apply (v3 : Vec Ideal S512x2048 .f32) (a : Vec Ideal S512x256 .f32) (w : Vec Ideal S2048x256 .f32)
    (p : Fin 512) (q : Fin 256) :
    Gen.k0_pay10 (F := Ideal) v3 a w (ix2 p q) = a (ix2 p q) + ∑ k : Fin 2048, v3 (ix2 p k) * w (ix2 k q) := by
  unfold Gen.k0_pay10
  rw [shapeCast_self, pay8_eq]
  exact congrArg (a (ix2 p q) + ·) (matmul_zero_apply v3 w p q)

theorem pay11_apply (v3 : Vec Ideal S512x2048 .f32) (a : Vec Ideal S512x256 .f32) (w : Vec Ideal S2048x256 .f32)
    (p : Fin 512) (q : Fin 256) :
    Gen.k0_pay11 (F := Ideal) v3 a w (ix2 p q) = a (ix2 p q) + ∑ k : Fin 2048, v3 (ix2 p k) * w (ix2 k q) := by
  unfold Gen.k0_pay11
  rw [pay8_eq]
  exact congrArg (a (ix2 p q) + ·) (matmul_zero_apply v3 w p q)

theorem pay1_pay11_apply (v3 : Vec Ideal S512x2048 .f32) (a : Vec Ideal S512x256 .f32) (w : Vec Ideal S2048x256 .f32)
    (p : Fin 512) (q : Fin 256) :
    Gen.k0_pay1 (F := Ideal) (Gen.k0_pay11 (F := Ideal) v3 a w) (ix2 p q)
      = a (ix2 p q) + ∑ k : Fin 2048, v3 (ix2 p k) * w (ix2 k q) := by
  unfold Gen.k0_pay1
  rw [shapeCast_self]
  exact pay11_apply v3 a w p q

theorem pay2_pay8_apply (v3 : Vec Ideal S512x2048 .f32) (a : Vec Ideal S512x256 .f32) (w : Vec Ideal S2048x256 .f32)
    (p : Fin 512) (q : Fin 256) :
    Gen.k0_pay2 (F := Ideal) (Gen.k0_pay8 (F := Ideal) v3) a w (ix2 p q)
      = a (ix2 p q) + ∑ k : Fin 2048, v3 (ix2 p k) * w (ix2 k q) := by
  unfold Gen.k0_pay2
  rw [shapeCast_self, pay8_eq]
  exact congrArg (a (ix2 p q) + ·) (matmul_zero_apply v3 w p q)

/-! ## The output payload -/

/-- The output block is the specification's gate formula index by index: σ(o) · tanh (c · σ(f) + σ(i) · tanh g). -/
theorem pay3_apply (c0 f i g o : Vec Ideal S512x256 .f32) (j : S512x256.Idx) :
    Gen.k0_pay3 (F := Ideal) c0 f i g o j = Cert.LstmSpec.gate (f j) (i j) (g j) (o j) (c0 j) := by
  unfold Gen.k0_pay3 Cert.LstmSpec.gate
  rfl

end Cert.PayAt

end
-- ==== Proof.KiOut.lean ====
/-
  The output block at a step-1 point is the specification's cell function at the block's place in the array.

  Point t of the 32 has row block t / 16, column block (t / 2) % 8 and reduction step t % 2. The input block of [x | h]
  at t holds rows (t / 16) · 512 + p and columns (t % 2) · 2048 + k; gate g's weight block holds rows (t % 2) · 2048 + k
  and columns (g · 8 + (t / 2) % 8) · 256 + q, which is column g · 2048 + ((t / 2) % 8 · 256 + q) of the array; the old
  cell state's block holds rows (t / 16) · 512 + p and columns ((t / 2) % 8) · 256 + q. At an odd t the point before
  is reduction step 0 of the same output block, so the two accumulate steps add the two halves of the inner product
  of a row of [x | h] with a column of the weights.
-/
import proofs.«133570_j39247411151126_2_alg».proof.Proof.KiData
import proofs.«133570_j39247411151126_2_alg».proof.Proof.PayAt
import proofs.«133570_j39247411151126_2_alg».proof.Proof.LstmSpec

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## The index maps over the grid -/

theorem t_lt (t : Fin cfg0.N) : t.val < 32 := lt_of_lt_of_eq t.isLt (show cfg0.N = 32 from N_0)

/-- [x | h]'s block: row block t / 16, column block the reduction step. -/
theorem idx0 : ∀ t : Fin cfg0.N, win0_0.index t (0 : Fin 2) = t.val / 16 ∧ win0_0.index t (1 : Fin 2) = t.val % 2 :=
  (by decide +kernel : ∀ t : Fin grid0.N, _)
/-- Gate f's weight block: row block the reduction step, column block (t / 2) % 8 of the first stripe. -/
theorem idx1 : ∀ t : Fin cfg0.N, win0_1.index t (0 : Fin 2) = t.val % 2 ∧ win0_1.index t (1 : Fin 2) = 0 * 8 + (t.val / 2) % 8 :=
  (by decide +kernel : ∀ t : Fin grid0.N, _)
/-- Gate i's: of the second stripe. -/
theorem idx2 : ∀ t : Fin cfg0.N, win0_2.index t (0 : Fin 2) = t.val % 2 ∧ win0_2.index t (1 : Fin 2) = 1 * 8 + (t.val / 2) % 8 :=
  (by decide +kernel : ∀ t : Fin grid0.N, _)
/-- Gate g's: of the third stripe. -/
theorem idx3 : ∀ t : Fin cfg0.N, win0_3.index t (0 : Fin 2) = t.val % 2 ∧ win0_3.index t (1 : Fin 2) = 2 * 8 + (t.val / 2) % 8 :=
  (by decide +kernel : ∀ t : Fin grid0.N, _)
/-- Gate o's: of the fourth stripe. -/
theorem idx4 : ∀ t : Fin cfg0.N, win0_4.index t (0 : Fin 2) = t.val % 2 ∧ win0_4.index t (1 : Fin 2) = 3 * 8 + (t.val / 2) % 8 :=
  (by decide +kernel : ∀ t : Fin grid0.N, _)
/-- The old cell state's block: row block t / 16, column block (t / 2) % 8. -/
theorem idx5 : ∀ t : Fin cfg0.N, win0_5.index t (0 : Fin 2) = t.val / 16 ∧ win0_5.index t (1 : Fin 2) = (t.val / 2) % 8 :=
  (by decide +kernel : ∀ t : Fin grid0.N, _)

/-! ## The blocks read at coordinates -/

/-- [x | h]'s block at t, entry (p, k), is the array's entry (r, kk) with r = (t / 16) · 512 + p, kk = (t % 2) · 2048 + k. -/
theorem iblk0_apply (t : Fin cfg0.N) (p : Fin 512) (k : Fin 2048) (r : Fin 1024) (kk : Fin 4096)
    (hr : r.val = t.val / 16 * 512 + p.val) (hk : kk.val = t.val % 2 * 2048 + k.val) :
    (iblk m c 0 t : Vec Ideal S512x2048 .f32) (ix2 p k) = (V m c main_v0 : S1024x4096.Idx → EReal) (ix2 r kk) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = kk.val; rw [e1, hk]; omega

/-- Gate f's weight block at t, entry (k, q), is the array's entry (kk, cc) with kk = (t % 2) · 2048 + k,
    cc = (0 · 8 + (t / 2) % 8) · 256 + q. -/
theorem iblk1_apply (t : Fin cfg0.N) (k : Fin 2048) (q : Fin 256) (kk : Fin 4096) (cc : Fin 8192)
    (hk : kk.val = t.val % 2 * 2048 + k.val) (hc : cc.val = (0 * 8 + (t.val / 2) % 8) * 256 + q.val) :
    (iblk m c 1 t : Vec Ideal S2048x256 .f32) (ix2 k q) = (V m c main_arg3 : S4096x8192.Idx → EReal) (ix2 kk cc) := by
  obtain ⟨e0, e1⟩ := idx1 t
  unfold iblk
  rw [View.read_apply]
  show V m c main_arg3 _ = V m c main_arg3 _
  congr 1
  funext a
  apply Fin.ext
  match a with
  | ⟨0, _⟩ => show win0_1.index t (0 : Fin 2) * 2048 + 1 * k.val = kk.val; rw [e0, hk]; omega
  | ⟨1, _⟩ => show win0_1.index t (1 : Fin 2) * 256 + 1 * q.val = cc.val; rw [e1, hc]; omega

/-- Gate i's weight block at t, entry (k, q), is the array's entry (kk, cc) with kk = (t % 2) · 2048 + k,
    cc = (1 · 8 + (t / 2) % 8) · 256 + q. -/
theorem iblk2_apply (t : Fin cfg0.N) (k : Fin 2048) (q : Fin 256) (kk : Fin 4096) (cc : Fin 8192)
    (hk : kk.val = t.val % 2 * 2048 + k.val) (hc : cc.val = (1 * 8 + (t.val / 2) % 8) * 256 + q.val) :
    (iblk m c 2 t : Vec Ideal S2048x256 .f32) (ix2 k q) = (V m c main_arg3 : S4096x8192.Idx → EReal) (ix2 kk cc) := by
  obtain ⟨e0, e1⟩ := idx2 t
  unfold iblk
  rw [View.read_apply]
  show V m c main_arg3 _ = V m c main_arg3 _
  congr 1
  funext a
  apply Fin.ext
  match a with
  | ⟨0, _⟩ => show win0_2.index t (0 : Fin 2) * 2048 + 1 * k.val = kk.val; rw [e0, hk]; omega
  | ⟨1, _⟩ => show win0_2.index t (1 : Fin 2) * 256 + 1 * q.val = cc.val; rw [e1, hc]; omega

/-- Gate g's weight block at t, entry (k, q), is the array's entry (kk, cc) with kk = (t % 2) · 2048 + k,
    cc = (2 · 8 + (t / 2) % 8) · 256 + q. -/
theorem iblk3_apply (t : Fin cfg0.N) (k : Fin 2048) (q : Fin 256) (kk : Fin 4096) (cc : Fin 8192)
    (hk : kk.val = t.val % 2 * 2048 + k.val) (hc : cc.val = (2 * 8 + (t.val / 2) % 8) * 256 + q.val) :
    (iblk m c 3 t : Vec Ideal S2048x256 .f32) (ix2 k q) = (V m c main_arg3 : S4096x8192.Idx → EReal) (ix2 kk cc) := by
  obtain ⟨e0, e1⟩ := idx3 t
  unfold iblk
  rw [View.read_apply]
  show V m c main_arg3 _ = V m c main_arg3 _
  congr 1
  funext a
  apply Fin.ext
  match a with
  | ⟨0, _⟩ => show win0_3.index t (0 : Fin 2) * 2048 + 1 * k.val = kk.val; rw [e0, hk]; omega
  | ⟨1, _⟩ => show win0_3.index t (1 : Fin 2) * 256 + 1 * q.val = cc.val; rw [e1, hc]; omega

/-- Gate o's weight block at t, entry (k, q), is the array's entry (kk, cc) with kk = (t % 2) · 2048 + k,
    cc = (3 · 8 + (t / 2) % 8) · 256 + q. -/
theorem iblk4_apply (t : Fin cfg0.N) (k : Fin 2048) (q : Fin 256) (kk : Fin 4096) (cc : Fin 8192)
    (hk : kk.val = t.val % 2 * 2048 + k.val) (hc : cc.val = (3 * 8 + (t.val / 2) % 8) * 256 + q.val) :
    (iblk m c 4 t : Vec Ideal S2048x256 .f32) (ix2 k q) = (V m c main_arg3 : S4096x8192.Idx → EReal) (ix2 kk cc) := by
  obtain ⟨e0, e1⟩ := idx4 t
  unfold iblk
  rw [View.read_apply]
  show V m c main_arg3 _ = V m c main_arg3 _
  congr 1
  funext a
  apply Fin.ext
  match a with
  | ⟨0, _⟩ => show win0_4.index t (0 : Fin 2) * 2048 + 1 * k.val = kk.val; rw [e0, hk]; omega
  | ⟨1, _⟩ => show win0_4.index t (1 : Fin 2) * 256 + 1 * q.val = cc.val; rw [e1, hc]; omega

/-- The old cell state's block at t, entry (p, q), is the array's entry (r, cq) with r = (t / 16) · 512 + p,
    cq = ((t / 2) % 8) · 256 + q. -/
theorem iblk5_apply (t : Fin cfg0.N) (p : Fin 512) (q : Fin 256) (r : Fin 1024) (cq : Fin 2048)
    (hr : r.val = t.val / 16 * 512 + p.val) (hq : cq.val = (t.val / 2) % 8 * 256 + q.val) :
    (iblk m c 5 t : Vec Ideal S512x256 .f32) (ix2 p q) = (V m c main_arg2 : S1024x2048.Idx → EReal) (ix2 r cq) := by
  obtain ⟨e0, e1⟩ := idx5 t
  unfold iblk
  rw [View.read_apply]
  show V m c main_arg2 _ = V m c main_arg2 _
  congr 1
  funext a
  apply Fin.ext
  match a with
  | ⟨0, _⟩ => show win0_5.index t (0 : Fin 2) * 512 + 1 * p.val = r.val; rw [e0, hr]; omega
  | ⟨1, _⟩ => show win0_5.index t (1 : Fin 2) * 256 + 1 * q.val = cq.val; rw [e1, hq]; omega

/-! ## Two accumulate steps from zero -/

/-- Gate f's accumulator after both steps, at (p, q): zero plus the first product plus the second. -/
theorem two_steps0 (x0 x1 : Vec Ideal S512x2048 .f32) (w0 w1 : Vec Ideal S2048x256 .f32) (p : Fin 512) (q : Fin 256) :
    Gen.k0_pay9 (F := Ideal) x1 (Gen.k0_pay9 (F := Ideal) x0 (Gen.k0_pay4 (F := Ideal)) w0) w1 (ix2 p q)
      = (0 + ∑ k : Fin 2048, x0 (ix2 p k) * w0 (ix2 k q)) + ∑ k : Fin 2048, x1 (ix2 p k) * w1 (ix2 k q) := by
  rw [Cert.PayAt.pay9_apply, Cert.PayAt.pay9_apply, Cert.PayAt.pay4_apply]

/-- Gate i's accumulator after both steps, at (p, q): zero plus the first product plus the second. -/
theorem two_steps1 (x0 x1 : Vec Ideal S512x2048 .f32) (w0 w1 : Vec Ideal S2048x256 .f32) (p : Fin 512) (q : Fin 256) :
    Gen.k0_pay10 (F := Ideal) x1 (Gen.k0_pay10 (F := Ideal) x0 (Gen.k0_pay5 (F := Ideal)) w0) w1 (ix2 p q)
      = (0 + ∑ k : Fin 2048, x0 (ix2 p k) * w0 (ix2 k q)) + ∑ k : Fin 2048, x1 (ix2 p k) * w1 (ix2 k q) := by
  rw [Cert.PayAt.pay10_apply, Cert.PayAt.pay10_apply, Cert.PayAt.pay5_apply]

/-- Gate g's accumulator after both steps, at (p, q): zero plus the first product plus the second. -/
theorem two_steps2 (x0 x1 : Vec Ideal S512x2048 .f32) (w0 w1 : Vec Ideal S2048x256 .f32) (p : Fin 512) (q : Fin 256) :
    Gen.k0_pay1 (F := Ideal) (Gen.k0_pay11 (F := Ideal) x1 (Gen.k0_pay1 (F := Ideal) (Gen.k0_pay11 (F := Ideal) x0 (Gen.k0_pay6 (F := Ideal)) w0)) w1) (ix2 p q)
      = (0 + ∑ k : Fin 2048, x0 (ix2 p k) * w0 (ix2 k q)) + ∑ k : Fin 2048, x1 (ix2 p k) * w1 (ix2 k q) := by
  rw [Cert.PayAt.pay1_pay11_apply, Cert.PayAt.pay1_pay11_apply, Cert.PayAt.pay6_apply]

/-- Gate o's accumulator after both steps, at (p, q): zero plus the first product plus the second. -/
theorem two_steps3 (x0 x1 : Vec Ideal S512x2048 .f32) (w0 w1 : Vec Ideal S2048x256 .f32) (p : Fin 512) (q : Fin 256) :
    Gen.k0_pay2 (F := Ideal) (Gen.k0_pay8 (F := Ideal) x1) (Gen.k0_pay2 (F := Ideal) (Gen.k0_pay8 (F := Ideal) x0) (Gen.k0_pay7 (F := Ideal)) w0) w1 (ix2 p q)
      = (0 + ∑ k : Fin 2048, x0 (ix2 p k) * w0 (ix2 k q)) + ∑ k : Fin 2048, x1 (ix2 p k) * w1 (ix2 k q) := by
  rw [Cert.PayAt.pay2_pay8_apply, Cert.PayAt.pay2_pay8_apply, Cert.PayAt.pay7_apply]

/-! ## The two halves of the inner product -/

/-- Zero plus a sum of 2048 products plus another is gate g's pre-activation at (r, cq), when the first sum's terms are
    the inner product's terms 0 … 2047 and the second's its terms 2048 … 4095. -/
theorem halves_eq (mg : Cert.LstmSpec.SM.Idx → EReal) (W : Cert.LstmSpec.SW.Idx → EReal) (g : Fin 4) (r : Fin 1024) (cq : Fin 2048)
    (a0 b0 a1 b1 : Fin 2048 → EReal)
    (h0 : ∀ k : Fin 2048, a0 k * b0 k
      = mg (ix2 r (⟨k.val, by omega⟩ : Fin 4096)) * W (ix2 (⟨k.val, by omega⟩ : Fin 4096) (Cert.LstmSpec.gcol g cq)))
    (h1 : ∀ k : Fin 2048, a1 k * b1 k
      = mg (ix2 r (⟨2048 + k.val, by omega⟩ : Fin 4096)) * W (ix2 (⟨2048 + k.val, by omega⟩ : Fin 4096) (Cert.LstmSpec.gcol g cq))) :
    (0 + ∑ k : Fin 2048, a0 k * b0 k) + ∑ k : Fin 2048, a1 k * b1 k = Cert.LstmSpec.pre mg W g r cq := by
  unfold Cert.LstmSpec.pre
  refine Eq.trans ?_ (Cert.LstmSpec.sum_halves (fun k : Fin 4096 => mg (ix2 r k) * W (ix2 k (Cert.LstmSpec.gcol g cq)))).symm
  exact congrArg₂ (· + ·) (congrArg (0 + ·) (Finset.sum_congr rfl fun k _ => h0 k)) (Finset.sum_congr rfl fun k _ => h1 k)

/-! ## The four pre-activations at a step-1 point -/

/-- Gate f's finished accumulator at a step-1 point is its pre-activation at the block's place. -/
theorem pre0_eq (t : Fin cfg0.N) (ht : t.val % 2 = 1) (p : Fin 512) (q : Fin 256) (r : Fin 1024) (cq : Fin 2048)
    (hr : r.val = t.val / 16 * 512 + p.val) (hq : cq.val = (t.val / 2) % 8 * 256 + q.val) :
    Gen.k0_pay9 (F := Ideal) (iblk m c 0 t) (acc0 m c (prev t)) (iblk m c 1 t) (ix2 p q)
      = Cert.LstmSpec.pre (V m c main_v0) (V m c main_arg3) 0 r cq := by
  have hp : (prev t).val = t.val - 1 := rfl
  have hlt := t_lt t
  unfold acc0
  refine (two_steps0 (iblk m c 0 (prev t)) (iblk m c 0 t) (iblk m c 1 (prev t)) (iblk m c 1 t) p q).trans ?_
  refine halves_eq (V m c main_v0) (V m c main_arg3) 0 r cq _ _ _ _ (fun k => ?_) (fun k => ?_)
  · exact congrArg₂ (· * ·)
      (iblk0_apply m c (prev t) p k r ⟨k.val, by omega⟩ (by rw [hp, hr]; omega) (by rw [hp]; show k.val = _; omega))
      (iblk1_apply m c (prev t) k q ⟨k.val, by omega⟩ (Cert.LstmSpec.gcol 0 cq) (by rw [hp]; show k.val = _; omega)
        (by rw [hp]; show 0 * 2048 + cq.val = _; rw [hq]; omega))
  · exact congrArg₂ (· * ·)
      (iblk0_apply m c t p k r ⟨2048 + k.val, by omega⟩ hr (by show 2048 + k.val = _; omega))
      (iblk1_apply m c t k q ⟨2048 + k.val, by omega⟩ (Cert.LstmSpec.gcol 0 cq) (by show 2048 + k.val = _; omega)
        (by show 0 * 2048 + cq.val = _; rw [hq]; omega))

/-- Gate i's finished accumulator at a step-1 point is its pre-activation at the block's place. -/
theorem pre1_eq (t : Fin cfg0.N) (ht : t.val % 2 = 1) (p : Fin 512) (q : Fin 256) (r : Fin 1024) (cq : Fin 2048)
    (hr : r.val = t.val / 16 * 512 + p.val) (hq : cq.val = (t.val / 2) % 8 * 256 + q.val) :
    Gen.k0_pay10 (F := Ideal) (iblk m c 0 t) (acc1 m c (prev t)) (iblk m c 2 t) (ix2 p q)
      = Cert.LstmSpec.pre (V m c main_v0) (V m c main_arg3) 1 r cq := by
  have hp : (prev t).val = t.val - 1 := rfl
  have hlt := t_lt t
  unfold acc1
  refine (two_steps1 (iblk m c 0 (prev t)) (iblk m c 0 t) (iblk m c 2 (prev t)) (iblk m c 2 t) p q).trans ?_
  refine halves_eq (V m c main_v0) (V m c main_arg3) 1 r cq _ _ _ _ (fun k => ?_) (fun k => ?_)
  · exact congrArg₂ (· * ·)
      (iblk0_apply m c (prev t) p k r ⟨k.val, by omega⟩ (by rw [hp, hr]; omega) (by rw [hp]; show k.val = _; omega))
      (iblk2_apply m c (prev t) k q ⟨k.val, by omega⟩ (Cert.LstmSpec.gcol 1 cq) (by rw [hp]; show k.val = _; omega)
        (by rw [hp]; show 1 * 2048 + cq.val = _; rw [hq]; omega))
  · exact congrArg₂ (· * ·)
      (iblk0_apply m c t p k r ⟨2048 + k.val, by omega⟩ hr (by show 2048 + k.val = _; omega))
      (iblk2_apply m c t k q ⟨2048 + k.val, by omega⟩ (Cert.LstmSpec.gcol 1 cq) (by show 2048 + k.val = _; omega)
        (by show 1 * 2048 + cq.val = _; rw [hq]; omega))

/-- Gate g's finished accumulator at a step-1 point is its pre-activation at the block's place. -/
theorem pre2_eq (t : Fin cfg0.N) (ht : t.val % 2 = 1) (p : Fin 512) (q : Fin 256) (r : Fin 1024) (cq : Fin 2048)
    (hr : r.val = t.val / 16 * 512 + p.val) (hq : cq.val = (t.val / 2) % 8 * 256 + q.val) :
    Gen.k0_pay1 (F := Ideal) (Gen.k0_pay11 (F := Ideal) (iblk m c 0 t) (acc2 m c (prev t)) (iblk m c 3 t)) (ix2 p q)
      = Cert.LstmSpec.pre (V m c main_v0) (V m c main_arg3) 2 r cq := by
  have hp : (prev t).val = t.val - 1 := rfl
  have hlt := t_lt t
  unfold acc2
  refine (two_steps2 (iblk m c 0 (prev t)) (iblk m c 0 t) (iblk m c 3 (prev t)) (iblk m c 3 t) p q).trans ?_
  refine halves_eq (V m c main_v0) (V m c main_arg3) 2 r cq _ _ _ _ (fun k => ?_) (fun k => ?_)
  · exact congrArg₂ (· * ·)
      (iblk0_apply m c (prev t) p k r ⟨k.val, by omega⟩ (by rw [hp, hr]; omega) (by rw [hp]; show k.val = _; omega))
      (iblk3_apply m c (prev t) k q ⟨k.val, by omega⟩ (Cert.LstmSpec.gcol 2 cq) (by rw [hp]; show k.val = _; omega)
        (by rw [hp]; show 2 * 2048 + cq.val = _; rw [hq]; omega))
  · exact congrArg₂ (· * ·)
      (iblk0_apply m c t p k r ⟨2048 + k.val, by omega⟩ hr (by show 2048 + k.val = _; omega))
      (iblk3_apply m c t k q ⟨2048 + k.val, by omega⟩ (Cert.LstmSpec.gcol 2 cq) (by show 2048 + k.val = _; omega)
        (by show 2 * 2048 + cq.val = _; rw [hq]; omega))

/-- Gate o's finished accumulator at a step-1 point is its pre-activation at the block's place. -/
theorem pre3_eq (t : Fin cfg0.N) (ht : t.val % 2 = 1) (p : Fin 512) (q : Fin 256) (r : Fin 1024) (cq : Fin 2048)
    (hr : r.val = t.val / 16 * 512 + p.val) (hq : cq.val = (t.val / 2) % 8 * 256 + q.val) :
    Gen.k0_pay2 (F := Ideal) (Gen.k0_pay8 (F := Ideal) (iblk m c 0 t)) (acc3 m c (prev t)) (iblk m c 4 t) (ix2 p q)
      = Cert.LstmSpec.pre (V m c main_v0) (V m c main_arg3) 3 r cq := by
  have hp : (prev t).val = t.val - 1 := rfl
  have hlt := t_lt t
  unfold acc3
  refine (two_steps3 (iblk m c 0 (prev t)) (iblk m c 0 t) (iblk m c 4 (prev t)) (iblk m c 4 t) p q).trans ?_
  refine halves_eq (V m c main_v0) (V m c main_arg3) 3 r cq _ _ _ _ (fun k => ?_) (fun k => ?_)
  · exact congrArg₂ (· * ·)
      (iblk0_apply m c (prev t) p k r ⟨k.val, by omega⟩ (by rw [hp, hr]; omega) (by rw [hp]; show k.val = _; omega))
      (iblk4_apply m c (prev t) k q ⟨k.val, by omega⟩ (Cert.LstmSpec.gcol 3 cq) (by rw [hp]; show k.val = _; omega)
        (by rw [hp]; show 3 * 2048 + cq.val = _; rw [hq]; omega))
  · exact congrArg₂ (· * ·)
      (iblk0_apply m c t p k r ⟨2048 + k.val, by omega⟩ hr (by show 2048 + k.val = _; omega))
      (iblk4_apply m c t k q ⟨2048 + k.val, by omega⟩ (Cert.LstmSpec.gcol 3 cq) (by show 2048 + k.val = _; omega)
        (by show 3 * 2048 + cq.val = _; rw [hq]; omega))

/-! ## The output block -/

theorem gate_congr {f f' i i' g g' o o' s s' : EReal} (hf : f = f') (hi : i = i') (hg : g = g') (ho : o = o') (hs : s = s') :
    Cert.LstmSpec.gate f i g o s = Cert.LstmSpec.gate f' i' g' o' s' := by
  rw [hf, hi, hg, ho, hs]

/-- THE OUTPUT BLOCK at a step-1 point t, entry (p, q), is the cell function of [x | h], the old cell state and the
    weights at row (t / 16) · 512 + p, hidden unit ((t / 2) % 8) · 256 + q. -/
theorem out_eq (t : Fin cfg0.N) (ht : t.val % 2 = 1) (p : Fin 512) (q : Fin 256) :
    (outAt (F := Ideal) m c t : Vec Ideal S512x256 .f32) (ix2 p q)
      = Cert.LstmSpec.cell (V m c main_v0) (V m c main_arg2) (V m c main_arg3)
          (ix2 (⟨t.val / 16 * 512 + p.val, by have := t_lt t; omega⟩ : Fin 1024)
            (⟨(t.val / 2) % 8 * 256 + q.val, by omega⟩ : Fin 2048)) := by
  unfold outAt
  refine (Cert.PayAt.pay3_apply _ _ _ _ _ (ix2 p q)).trans ?_
  unfold Cert.LstmSpec.cell
  exact gate_congr (pre0_eq m c t ht p q _ _ rfl rfl) (pre1_eq m c t ht p q _ _ rfl rfl) (pre2_eq m c t ht p q _ _ rfl rfl)
    (pre3_eq m c t ht p q _ _ rfl rfl) (iblk5_apply m c t p q _ _ rfl rfl)

end Cert.KernelIdeal.Hand

end
-- ==== Proof.lean ====
/-
  An LSTM cell step: the Pallas kernel against its jnp reference, on the extended reals.

  Both programs compute, for the row-wise concatenation [x | h] (1024 × 4096), the weights W (4096 × 8192, the gates
  f, i, g, o in four column stripes of width 2048) and the cell state c (1024 × 2048),
      h' = σ(o) · tanh(c · σ(f) + σ(i) · tanh(g)),   (f, i, g, o) = the four stripes of [x | h] · W,   σ x = 1 / (1 + e^(−x)).
  The reference does it with one product and four column slices, σ spelled by negate, exponential, add and divide. The
  kernel tiles the product over a (2, 8, 2) grid: output blocks of 512 × 256, the inner dimension in two halves of 2048;
  each gate has an accumulator zeroed at the first half, added to at both, and the output block is computed at the
  second. The weights reach the kernel through four windows on one array, one per gate.

  On the extended reals a change of float format is the identity and addition is commutative and associative, so the
  kernel's (0 + first half) + second half is the reference's sum over all 4096 terms, with no finiteness needed, and
  the kernel's logistic is the reference's spelled-out quotient by definition. The frames are the pipeline's launch
  (the weights' points-to dealt in four quarter shares to the four windows that read it) for the two kernels and the
  operations run in order for the reference; the idealization rewrote nothing.
-/
import proofs.«133570_j39247411151126_2_alg».proof.Defs
import proofs.«133570_j39247411151126_2_alg».proof.Proof.Gen.Kernel
import proofs.«133570_j39247411151126_2_alg».proof.Proof.Gen.KernelIdeal
import proofs.«133570_j39247411151126_2_alg».proof.Proof.Gen.ReferenceIdeal
import proofs.«133570_j39247411151126_2_alg».proof.Proof.Gen.Pre_finite_inputs
import proofs.«133570_j39247411151126_2_alg».proof.Proof.Gen.ReferenceIdeal.Run
import proofs.«133570_j39247411151126_2_alg».proof.Proof.Gen.ReferenceIdeal.Read
import proofs.«133570_j39247411151126_2_alg».proof.Proof.KRun
import proofs.«133570_j39247411151126_2_alg».proof.Proof.KiRun
import proofs.«133570_j39247411151126_2_alg».proof.Proof.RefCell
import proofs.«133570_j39247411151126_2_alg».proof.Proof.KiFinal
import proofs.«133570_j39247411151126_2_alg».proof.Proof.KiOut
import Idealize.ShloMosaic.Lib.StableHlo.Run
import Idealize.ShloMosaic.Adequacy
import Idealize.ShloMosaic.Init

noncomputable section

/-! ## The kernel's result array at the ideal instance -/

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At the region's entry the first window's array holds the concatenation [x | h]. -/
theorem V_v0 (c : Dev nD) :
    (V m c main_v0 : S1024x4096.Idx → Elt Ideal .f32)
      = concatenate S1024x4096 1 [⟨S1024x2048, m ((c : Thread nD τ).loc main_arg0)⟩, ⟨S1024x2048, m ((c : Thread nD τ).loc main_arg1)⟩] concatenates_S1024x2048_S1024x2048_S1024x4096_d1 := by
  dsimp only [V, V0, hostOps0]; after_results

/-- After the run the result array holds the cell function of the region-entry arrays: every output block is written
    back once, at its second reduction step, and the blocks tile the array. -/
theorem final (c : Dev nD) :
    (dats (F := Ideal) m 0 c).arrAt 6 cfg0.N = Cert.LstmSpec.cell (V m c main_v0) (V m c main_arg2) (V m c main_arg3) :=
  final_of m c _ (fun t ht p q => out_eq m c t ht p q)

/-- The idealized kernel's run with its result named: the cell function of [x | h], the old cell state and the weights;
    the four argument arrays as they were. -/
theorem run_value : θ_run defs (onTc (τ := τ) (main (F := Ideal))) ⟨m, fun _ => 0, ρ⟩ (fun r => ∀ c : Dev nD,
      r.2.mem ((c.tc : Thread nD τ).loc main_v1)
        = Cert.LstmSpec.cell (concatenate S1024x4096 1 [⟨S1024x2048, m ((c : Thread nD τ).loc main_arg0)⟩, ⟨S1024x2048, m ((c : Thread nD τ).loc main_arg1)⟩] concatenates_S1024x2048_S1024x2048_S1024x4096_d1)
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 6).trans ((final m c).trans (by rw [V_v0, V_of_ne m c main_arg2 (by decide), V_of_ne m c main_arg3 (by decide)])),
     ((h c).2 main_arg0 (Pipeline.mem_restRefs_of main_arg0 rfl (by decide))).trans (V_of_ne m c main_arg0 (by decide)),
     ((h c).2 main_arg1 (Pipeline.mem_restRefs_of main_arg1 rfl (by decide))).trans (V_of_ne m c main_arg1 (by decide)),
     ((h c).1 5).trans (((dats m 0 c).arrAt_in 5 rfl _).trans ((A_eq m c 5).trans (V_of_ne m c main_arg2 (by decide)))),
     ((h c).1 1).trans (((dats m 0 c).arrAt_in 1 rfl _).trans ((A_eq m c 1).trans (V_of_ne m c main_arg3 (by decide))))⟩)
    (run_main m ρ)

end Cert.KernelIdeal.Hand

/-! ## The claims -/

namespace Cert.Proof

open Idealize.ShloMosaic Idealize.SL.Sem

/-- The three programs run to the end, fault nowhere and leave their arguments unchanged: the two kernels by the
    pipeline's launch, the reference by its operations run one after the other. -/
theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the cell function of [x | h], the old cell state and the weights:
    the kernel block by block, each gate's inner product over 4096 terms accumulated in two halves from zero; the
    reference by one product over all 4096 terms, four column slices, and σ spelled 1 / (1 + e^(−x)). -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefCell.ref_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
